-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S8192x20 : Shape := ⟨2, ![8192, 20]⟩
abbrev S20x8192 : Shape := ⟨2, ![20, 8192]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S8192x20 : S_.BroadcastsInDim S8192x20 (![] : Fin 0 → Fin S8192x20.rank)
  reducesTo_S8192x20_S_d0_1 : S8192x20.ReducesTo [0, 1] S_
  bcast_S_S20x8192 : S_.BroadcastsInDim S20x8192 (![] : Fin 0 → Fin S20x8192.rank)
  reducesTo_S20x8192_S_d0_1 : S20x8192.ReducesTo [0, 1] S_

variable [Facts]

def fn_part1 {F : FTy → Type} [FloatOps F] (main_arg4 : FVec F S8192x784 .f32) (main_v13 : IVec S_ 1) (main_v16 : IVec S20x8192 1) : IVec S_ 1 :=
  let main_c_5 : IVec S_ 1 := constantI S_ 1 1#1
  let main_v17 : IVec S_ 1 := (fun x v => Host.reduce IntOp.andi x v reducesTo_S20x8192_S_d0_1 h_S_) main_v16 main_c_5
  let main_v18 : IVec S_ 1 := andi main_v13 main_v17
  let main_v19 : FVec F S8192x784 .f32 := Host.absf main_arg4
  let main_cst_6 : FVec F S_ .f32 := constant S_ .f32 0x7F800000#32
  let main_v20 : FVec F S8192x784 .f32 := broadcastInDim S8192x784 ![] bcast_S_S8192x784 main_cst_6
  let main_v21 : IVec S8192x784 1 := cmpf .olt main_v19 main_v20
  let main_c_7 : IVec S_ 1 := constantI S_ 1 1#1
  let main_v22 : IVec S_ 1 := (fun x v => Host.reduce IntOp.andi x v reducesTo_S8192x784_S_d0_1 h_S_) main_v21 main_c_7
  let main_v23 : IVec S_ 1 := andi main_v18 main_v22
  main_v23

def fn {F : FTy → Type} [FloatOps F] (main_arg0 : FVec F S8192x784 .f32) (main_arg1 : FVec F S8192x784 .f32) (main_arg2 : FVec F S8192x20 .f32) (main_arg3 : FVec F S20x8192 .f32) (main_arg4 : FVec F S8192x784 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S8192x784 .f32 := Host.absf main_arg1
  let main_cst_0 : FVec F S_ .f32 := constant S_ .f32 0x7F800000#32
  let main_v5 : FVec F S8192x784 .f32 := broadcastInDim S8192x784 ![] bcast_S_S8192x784 main_cst_0
  let main_v6 : IVec S8192x784 1 := cmpf .olt main_v4 main_v5
  let main_c_1 : IVec S_ 1 := constantI S_ 1 1#1
  let main_v7 : IVec S_ 1 := (fun x v => Host.reduce IntOp.andi x v reducesTo_S8192x784_S_d0_1 h_S_) main_v6 main_c_1
  let main_v8 : IVec S_ 1 := andi main_v3 main_v7
  let main_v9 : FVec F S8192x20 .f32 := Host.absf main_arg2
  let main_cst_2 : FVec F S_ .f32 := constant S_ .f32 0x7F800000#32
  let main_v10 : FVec F S8192x20 .f32 := broadcastInDim S8192x20 ![] bcast_S_S8192x20 main_cst_2
  let main_v11 : IVec S8192x20 1 := cmpf .olt main_v9 main_v10
  let main_c_3 : IVec S_ 1 := constantI S_ 1 1#1
  let main_v12 : IVec S_ 1 := (fun x v => Host.reduce IntOp.andi x v reducesTo_S8192x20_S_d0_1 h_S_) main_v11 main_c_3
  let main_v13 : IVec S_ 1 := andi main_v8 main_v12
  let main_v14 : FVec F S20x8192 .f32 := Host.absf main_arg3
  let main_cst_4 : FVec F S_ .f32 := constant S_ .f32 0x7F800000#32
  let main_v15 : FVec F S20x8192 .f32 := broadcastInDim S20x8192 ![] bcast_S_S20x8192 main_cst_4
  let main_v16 : IVec S20x8192 1 := cmpf .olt main_v14 main_v15
  fn_part1 (F := F) main_arg4 main_v13 main_v16
-- ==== Kernel.lean ====
abbrev S8192x784 : Shape := ⟨2, ![8192, 784]⟩
abbrev S8192x20 : Shape := ⟨2, ![8192, 20]⟩
abbrev S20x8192 : Shape := ⟨2, ![20, 8192]⟩
abbrev S1024x784 : Shape := ⟨2, ![1024, 784]⟩
abbrev S20x1024 : Shape := ⟨2, ![20, 1024]⟩
abbrev S1024x20 : Shape := ⟨2, ![1024, 20]⟩
abbrev S1024 : Shape := ⟨1, ![1024]⟩
abbrev S1024x1 : Shape := ⟨2, ![1024, 1]⟩
abbrev S1x1024 : Shape := ⟨2, ![1, 1024]⟩
abbrev S784x1024 : Shape := ⟨2, ![784, 1024]⟩
abbrev S1024x1024 : Shape := ⟨2, ![1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x784, .f32⟩
  | .hbm, ⟨1, _⟩ => ⟨S8192x784, .f32⟩
  | .hbm, ⟨2, _⟩ => ⟨S8192x20, .f32⟩
  | .hbm, ⟨3, _⟩ => ⟨S20x8192, .f32⟩
  | .hbm, ⟨4, _⟩ => ⟨S8192x784, .f32⟩
  | .hbm, ⟨5, _⟩ => ⟨S8192x784, .bf16⟩
  | .hbm, ⟨6, _⟩ => ⟨S8192x20, .f32⟩
  | .hbm, ⟨7, _⟩ => ⟨S8192x784, .bf16⟩
  | .hbm, ⟨8, _⟩ => ⟨S8192x784, .f32⟩
  | .local _ .vmem, ⟨0, _⟩ => ⟨S1024x784, .f32⟩
  | .local _ .vmem, ⟨1, _⟩ => ⟨S1024x784, .f32⟩
  | .local _ .vmem, ⟨2, _⟩ => ⟨S1024x784, .bf16⟩
  | .local _ .vmem, ⟨3, _⟩ => ⟨S1024x784, .bf16⟩
  | .local _ .vmem, ⟨4, _⟩ => ⟨S20x1024, .f32⟩
  | .local _ .vmem, ⟨5, _⟩ => ⟨S20x1024, .f32⟩
  | .local _ .vmem, ⟨6, _⟩ => ⟨S1024x20, .f32⟩
  | .local _ .vmem, ⟨7, _⟩ => ⟨S1024x20, .f32⟩
  | .local _ .vmem, ⟨8, _⟩ => ⟨S1024x20, .f32⟩
  | .local _ .vmem, ⟨9, _⟩ => ⟨S1024x20, .f32⟩
  | .local _ .vmem, ⟨10, _⟩ => ⟨S1024x20, .f32⟩
  | .local _ .vmem, ⟨11, _⟩ => ⟨S1024x20, .f32⟩
  | .local _ .vmem, ⟨12, _⟩ => ⟨S1024x784, .bf16⟩
  | .local _ .vmem, ⟨13, _⟩ => ⟨S1024x784, .bf16⟩
  | .local _ .vmem, ⟨14, _⟩ => ⟨S1024x784, .f32⟩
  | .local _ .vmem, ⟨15, _⟩ => ⟨S1024x784, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S20x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x784 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x784 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x20_S1024x20_0_0 : ∀ a, (![0, 0] : Fin 2 → Nat) a + S1024x20.size a ≤ S1024x20.size a
  h_S1024x20 : 0 < S1024x20.numel
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  reduces_S1024x784_S1024 : S1024x784.Reduces [1] S1024
  shapeCasts_S1024_S1024x1 : S1024.ShapeCasts S1024x1
  shapeCasts_S1024_S1x1024 : S1024.ShapeCasts S1x1024
  transposes_S1024x784_p1_0_S784x1024 : S1024x784.Transposes [1, 0] S784x1024
  broadcasts_S1024x1_S1024x1024 : S1024x1.Broadcasts S1024x1024
  broadcasts_S1x1024_S1024x1024 : S1x1024.Broadcasts S1024x1024
  inb_S20x1024_S20x1024_0_0 : ∀ a, (![0, 0] : Fin 2 → Nat) a + S20x1024.size a ≤ S20x1024.size a
  h_S20x1024 : 0 < S20x1024.numel
  shapeCasts_S1024x20_S1024x20 : S1024x20.ShapeCasts S1024x20
  transposes_S20x1024_p1_0_S1024x20 : S20x1024.Transposes [1, 0] S1024x20
  reduces_S1024x20_S1024 : S1024x20.Reduces [1] S1024
  transposes_S1024x20_p1_0_S20x1024 : S1024x20.Transposes [1, 0] S20x1024
  dot_S1024x784_S784x1024_S1024x1024_1_0_0_1_n_n_wf : DotDims.WF S1024x784 S784x1024 S1024x1024 [1] [0] [0] [1] [] []
  dot_S1024x1024_S1024x20_S1024x20_1_0_0_1_n_n_wf : DotDims.WF S1024x1024 S1024x20 S1024x20 [1] [0] [0] [1] [] []
  dot_S1024x20_S20x1024_S1024x1024_1_0_0_1_n_n_wf : DotDims.WF S1024x20 S20x1024 S1024x1024 [1] [0] [0] [1] [] []
  dot_S1024x1024_S1024x784_S1024x784_1_0_0_1_n_n_wf : DotDims.WF S1024x1024 S1024x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S8192x784.size a
  hwx0_0 : ∀ i : grid0.Coords, EltTy.bits .f32 = 32 ∨ (Rect.block (s := S8192x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S8192x784.size a
  hwx0_1 : ∀ i : grid0.Coords, EltTy.bits .bf16 = 32 ∨ (Rect.block (s := S8192x784) S1024x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20x1024.size a ≤ S20x8192.size a
  hwx0_2 : ∀ i : grid0.Coords, EltTy.bits .f32 = 32 ∨ (Rect.block (s := S20x8192) S20x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x20.size a ≤ S8192x20.size a
  hwx0_3 : ∀ i : grid0.Coords, EltTy.bits .f32 = 32 ∨ (Rect.block (s := S8192x20) S1024x20.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x20.size a ≤ S8192x20.size a
  hwx1_0 : ∀ i : grid1.Coords, EltTy.bits .f32 = 32 ∨ (Rect.block (s := S8192x20) S1024x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x20.size a ≤ S8192x20.size a
  hwx1_1 : ∀ i : grid1.Coords, EltTy.bits .f32 = 32 ∨ (Rect.block (s := S8192x20) S1024x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x784.size a ≤ S8192x784.size a
  hwx1_2 : ∀ i : grid1.Coords, EltTy.bits .bf16 = 32 ∨ (Rect.block (s := S8192x784) S1024x784.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x784.size a ≤ S8192x784.size a
  hwx1_3 : ∀ i : grid1.Coords, EltTy.bits .f32 = 32 ∨ (Rect.block (s := S8192x784) S1024x784.size (cc1_transform_3 i) (hinb1_3 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x20_S1024x20_1_0_0_1_n_n : DotDims S1024x1024 S1024x20 S1024x20 where
  lhsContracting := [1]
  rhsContracting := [0]
  lhsNonContracting := [0]
  rhsNonContracting := [1]
  lhsBatch := []
  rhsBatch := []
  wf := dot_S1024x1024_S1024x20_S1024x20_1_0_0_1_n_n_wf
def dot_S1024x20_S20x1024_S1024x1024_1_0_0_1_n_n : DotDims S1024x20 S20x1024 S1024x1024 where
  lhsContracting := [1]
  rhsContracting := [0]
  lhsNonContracting := [0]
  rhsNonContracting := [1]
  lhsBatch := []
  rhsBatch := []
  wf := dot_S1024x20_S20x1024_S1024x1024_1_0_0_1_n_n_wf
def dot_S1024x1024_S1024x784_S1024x784_1_0_0_1_n_n : DotDims S1024x1024 S1024x784 S1024x784 where
  lhsContracting := [1]
  rhsContracting := [0]
  lhsNonContracting := [0]
  rhsNonContracting := [1]
  lhsBatch := []
  rhsBatch := []
  wf := dot_S1024x1024_S1024x784_S1024x784_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S20x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x784.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x784.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x784 : Shape := ⟨2, ![8192, 784]⟩
abbrev S8192x20 : Shape := ⟨2, ![8192, 20]⟩
abbrev S20x8192 : Shape := ⟨2, ![20, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S784x8192 : Shape := ⟨2, ![784, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x784, .f32⟩
  | .hbm, ⟨1, _⟩ => ⟨S8192x784, .f32⟩
  | .hbm, ⟨2, _⟩ => ⟨S8192x20, .f32⟩
  | .hbm, ⟨3, _⟩ => ⟨S20x8192, .f32⟩
  | .hbm, ⟨4, _⟩ => ⟨S8192x784, .f32⟩
  | .hbm, ⟨5, _⟩ => ⟨S8192x784, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x784, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S784x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x20, .f32⟩
  | .hbm, ⟨31, _⟩ => ⟨S8192x20, .f32⟩
  | .hbm, ⟨32, _⟩ => ⟨S8192x20, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x20, .f32⟩
  | .hbm, ⟨37, _⟩ => ⟨S_, .f32⟩
  | .hbm, ⟨38, _⟩ => ⟨S8192, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S20x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x784, .f32⟩
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  reducesTo_S8192x784_S8192_d1 : S8192x784.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x784_S784x8192_1_0 : S8192x784.Transposes [1, 0] S784x8192
  bcast_S_S8192x8192 : S_.BroadcastsInDim S8192x8192 (![] : Fin 0 → Fin S8192x8192.rank)
  transposes_S20x8192_S8192x20_1_0 : S20x8192.Transposes [1, 0] S8192x20
  reducesTo_S8192x20_S8192_d1 : S8192x20.ReducesTo [1] S8192
  transposes_S8192x20_S20x8192_1_0 : S8192x20.Transposes [1, 0] S20x8192
  dot_S8192x784_S784x8192_S8192x8192_1_0_0_1_n_n_wf : DotDims.WF S8192x784 S784x8192 S8192x8192 [1] [0] [0] [1] [] []
  dot_S8192x8192_S8192x20_S8192x20_1_0_0_1_n_n_wf : DotDims.WF S8192x8192 S8192x20 S8192x20 [1] [0] [0] [1] [] []
  dot_S8192x20_S20x8192_S8192x8192_1_0_0_1_n_n_wf : DotDims.WF S8192x20 S20x8192 S8192x8192 [1] [0] [0] [1] [] []
  dot_S8192x8192_S8192x784_S8192x784_1_0_0_1_n_n_wf : DotDims.WF S8192x8192 S8192x784 S8192x784 [1] [0] [0] [1] [] []

variable [Facts₀]

def dot_S8192x784_S784x8192_S8192x8192_1_0_0_1_n_n : DotDims S8192x784 S784x8192 S8192x8192 where
  lhsContracting := [1]
  rhsContracting := [0]
  lhsNonContracting := [0]
  rhsNonContracting := [1]
  lhsBatch := []
  rhsBatch := []
  wf := dot_S8192x784_S784x8192_S8192x8192_1_0_0_1_n_n_wf
def dot_S8192x8192_S8192x20_S8192x20_1_0_0_1_n_n : DotDims S8192x8192 S8192x20 S8192x20 where
  lhsContracting := [1]
  rhsContracting := [0]
  lhsNonContracting := [0]
  rhsNonContracting := [1]
  lhsBatch := []
  rhsBatch := []
  wf := dot_S8192x8192_S8192x20_S8192x20_1_0_0_1_n_n_wf
def dot_S8192x20_S20x8192_S8192x8192_1_0_0_1_n_n : DotDims S8192x20 S20x8192 S8192x8192 where
  lhsContracting := [1]
  rhsContracting := [0]
  lhsNonContracting := [0]
  rhsNonContracting := [1]
  lhsBatch := []
  rhsBatch := []
  wf := dot_S8192x20_S20x8192_S8192x8192_1_0_0_1_n_n_wf
def dot_S8192x8192_S8192x784_S8192x784_1_0_0_1_n_n : DotDims S8192x8192 S8192x784 S8192x784 where
  lhsContracting := [1]
  rhsContracting := [0]
  lhsNonContracting := [0]
  rhsNonContracting := [1]
  lhsBatch := []
  rhsBatch := []
  wf := dot_S8192x8192_S8192x784_S8192x784_1_0_0_1_n_n_wf

class Facts : Prop extends Facts₀ where

variable [Facts]
-- ==== Proof.KernelRun.lean ====
/-
  The idealized kernel program's run with its result named, and the contents each of its two regions is entered from.

  The program is a conversion of the second argument to bfloat16, the first layer's region, a conversion of the fifth
  argument to bfloat16, and the second layer's region. Between them the TensorCore's buffers hold: after the first
  conversion the launch contents with the converted copy in its own buffer; after the first region the same with the
  region's output array at what its write-backs leave; after the second conversion that with the second converted
  copy; after the second region that with the second region's output array at what its write-backs leave. The
  program's result buffer is the second region's output array, so the final state holds there what that region's
  write-backs leave, and the five arguments hold what they were launched with.
-/
import proofs.«178752_j29918742184170_2_alg».proof.Proof.Gen.KernelIdeal.Frame
import Idealize.ShloMosaic.Lib.StableHlo.Run

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffer named -/

set_option backward.isDefEq.respectTransparency.types false in
/-- From any memory with zero counters every weakly fair execution of the program on the TensorCores terminates,
    nothing faulting, and in every final state the result buffer holds the last boundary's contents there and the
    five argument arrays hold what they were launched with: the launch over the four segments, the last thread
    state ("every unscoped buffer at the last boundary's contents") read against the final state at the result
    buffer and at each argument. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-! ## What the regions are entered from and left at -/

/-- The first conversion writes its own buffer only: every other buffer holds its launch contents after it. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- The second conversion writes its own buffer only: every other buffer holds after it what the first region left. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- The first region is entered with the first argument as launched. -/
theorem V1_arg0 (c : Dev nD) : V1 m ρ c main_arg0 = m ((c : Thread nD τ).loc main_arg0) :=
  W1_of_ne m ρ c main_arg0 (by decide)

/-- The first region is entered with the fourth argument as launched. -/
theorem V1_arg3 (c : Dev nD) : V1 m ρ c main_arg3 = m ((c : Thread nD τ).loc main_arg3) :=
  W1_of_ne m ρ c main_arg3 (by decide)

/-- The first region is entered with the converted copy of the second argument in the conversion's buffer. -/
theorem V1_v0 (c : Dev nD) :
    V1 m ρ c main_v0 = truncf .bf16 (m ((c : Thread nD τ).loc main_arg1)) bitsLt_bf16_f32 := by
  show StableHlo.after hostOps0 (W0 m ρ c) (Proc.devRef .tc main_v0) = _
  after_results

/-- The second region is entered with the first region's output array at what that region's write-backs leave: the
    second conversion does not write it. -/
theorem V3_v1 (c : Dev nD) : V3 m ρ c main_v1 = (dat0 (V1 m ρ) c).arrAt 3 cfg0.N :=
  (W3_of_ne m ρ c main_v1 (by decide)).trans (W2_arr m ρ c 3)

/-- The second region is entered with the third argument as launched: neither conversion writes it and it is no
    array of the first region. -/
theorem V3_arg2 (c : Dev nD) : V3 m ρ c main_arg2 = m ((c : Thread nD τ).loc main_arg2) :=
  ((W3_of_ne m ρ c main_arg2 (by decide)).trans (W2_of_ne m ρ c main_arg2 (by decide))).trans
    (W1_of_ne m ρ c main_arg2 (by decide))

/-- The fifth argument when the second conversion reads it is as launched. -/
theorem W2_arg4 (c : Dev nD) : W2 m ρ c (Proc.devRef .tc main_arg4) = m ((c : Thread nD τ).loc main_arg4) :=
  (W2_of_ne m ρ c main_arg4 (by decide)).trans (W1_of_ne m ρ c main_arg4 (by decide))

/-- The second region is entered with the converted copy of the fifth argument in the conversion's buffer. -/
theorem V3_v2 (c : Dev nD) :
    V3 m ρ c main_v2 = truncf .bf16 (m ((c : Thread nD τ).loc main_arg4)) bitsLt_bf16_f32 := by
  show StableHlo.after hostOps1 (W2 m ρ c) (Proc.devRef .tc main_v2) = _
  after_results
  rw [W2_arg4]

/-- The result buffer is the second region's output array: it ends at what that region's write-backs leave. -/
theorem W4_v3 (c : Dev nD) : W4 m ρ c (Proc.devRef .tc main_v3) = (dat1 (V3 m ρ) c).arrAt 3 cfg1.N :=
  W4_arr m ρ c 3

end Cert.KernelIdeal.Run

end
-- ==== Proof.EncPieces.lean ====
/-
  What one grid point of the first layer's kernel leaves in its output block, in each of its two control cases, for
  any float values.

  The body's conditional resets the output block to zero at the first centre-block of a row-block and does nothing
  otherwise; then the body loads its three input blocks and the output block, and stores the output block plus this
  centre-block's contribution. So at a resetting point the block ends at the contribution added to the zero block
  (the load of the output block reads back the zeros just stored), and at every other point at the contribution
  added to what the block held before. Both are the body's one arithmetic term, the payload, at the loaded blocks.
-/
import proofs.«178752_j29918742184170_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.EncPieces

open Cert.KernelIdeal Cert.KernelIdeal.Gen

variable {F : FTy → Type} [FloatOps F]

/-- A rank-2 block's zero offsets. -/
theorem hz : (![0, 0] : Fin 2 → Nat) = fun _ => 0 := funext fun a => by fin_cases a <;> rfl

/-- A point that does not reset: the block ends at the payload of the three input blocks and its own contents. -/
theorem out_B (c : Dev nD) (i : grid0.Coords) (arg2 : Memref sig .tc .vmem S1024x784 .f32) (harg2 : arg2.IsWhole) (arg3 : Memref sig .tc .vmem S1024x784 .bf16) (harg3 : arg3.IsWhole) (arg4 : Memref sig .tc .vmem S20x1024 .f32) (harg4 : arg4.IsWhole) (arg5 : Memref sig .tc .vmem S1024x20 .f32) (harg5 : arg5.IsWhole) (hc0 : ¬cond0_0 i)
    (x0 : Vec F S1024x784 .f32) (x1 : Vec F S1024x784 .bf16) (x2 : Vec F S20x1024 .f32) (xo3 : Vec F S1024x20 .f32) :
    out0_B_3 c i arg2 harg2 arg3 harg3 arg4 harg4 arg5 harg5 hc0 x0 x1 x2 xo3 = k0_pay2 x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  rw [View.canon_unit_zero hz]
  simp only [View.readAt_eq_ld, harg2.read_unread, harg3.read_unread, harg4.read_unread, harg5.read_unread,
    View.ld_unit_zero (S := S1024x784) hz, View.ld_unit_zero (S := S1024x784) hz, View.ld_unit_zero (S := S20x1024) hz,
    View.ld_unit_zero (S := S1024x20) hz]

/-- A resetting point: the block ends at the payload of the three input blocks and the zero block. -/
theorem out_A (c : Dev nD) (i : grid0.Coords) (arg2 : Memref sig .tc .vmem S1024x784 .f32) (harg2 : arg2.IsWhole) (arg3 : Memref sig .tc .vmem S1024x784 .bf16) (harg3 : arg3.IsWhole) (arg4 : Memref sig .tc .vmem S20x1024 .f32) (harg4 : arg4.IsWhole) (arg5 : Memref sig .tc .vmem S1024x20 .f32) (harg5 : arg5.IsWhole) (hc0 : cond0_0 i)
    (x0 : Vec F S1024x784 .f32) (x1 : Vec F S1024x784 .bf16) (x2 : Vec F S20x1024 .f32) :
    out0_A_3 c i arg2 harg2 arg3 harg3 arg4 harg4 arg5 harg5 hc0 x0 x1 x2 = k0_pay2 x0 x1 x2 k0_pay1 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1024x20) hz, View.readCov_unit_zero (S := S1024x20) _ hz]
  simp only [View.readAt_eq_ld, harg2.read_unread, harg3.read_unread, harg4.read_unread,
    View.ld_unit_zero (S := S1024x784) hz, View.ld_unit_zero (S := S1024x784) hz, View.ld_unit_zero (S := S20x1024) hz,
    View.ld_unit_zero (S := S1024x20) hz]

end Cert.KernelIdeal.EncPieces

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.RbfSpec.lean ====
/-
  The function both programs compute, over the extended reals, and the two small laws that join their spellings.

  One layer: for a row a and a centre c (vectors over the same feature set), the squared distance in expanded form
  |a|² + |c|² − 2·(a·c), floored at 0, times −1/2, exponentiated: the Gaussian weight of the pair. The layer's value at
  a row is the sum over all centres of weight · (that centre's coefficient). The network is two such layers: the
  first's coefficients are read from a [20, 8192] array by column, the second's from a [8192, 784] array by row, and
  the second layer's rows are the first layer's output.

  The two spellings of the weight differ only in how the factor −1/2 is written: a product with the word of −0.5, or a
  negation followed by a quotient by the word of 2.0. On every extended real these agree (weight_host): a quotient by
  a nonzero real is the product with its reciprocal, and a sign moves across a product. No finiteness is used.

  A sum over the 8192 centres taken in 8 blocks of 1024, block 0 first, is the whole sum (addition of extended reals is
  commutative and associative): the positions are BlockSum.pos.
-/
import Idealize.ShloMosaic.PureOps.Ideal
import Idealize.ShloMosaic.PureOps.Ideal.Laws
import Idealize.ShloMosaic.Lib.ValueIdx
import proofs.«178752_j29918742184170_2_alg».proof.Proof.LibBlockSum

noncomputable section

namespace Cert.Rbf

open Idealize.ShloMosaic Idealize.ShloMosaic.ValueIdx

/-- The word of 2.0 denotes the real 2. -/
theorem two_val : Ideal.ofBits .f32 0x40000000#32 = ((2 : ℝ) : EReal) := by
  simp [Ideal.ofBits, Ideal.ieee, -EReal.coe_mul]; norm_num

/-- The word of −0.5 denotes the real −1/2. -/
theorem neg_half_val : Ideal.ofBits .f32 0xBF000000#32 = ((-(1 / 2) : ℝ) : EReal) := by
  simp [Ideal.ofBits, Ideal.ieee, -EReal.coe_mul]; norm_num

/-- The Gaussian weight of a squared-distance term: floored at zero, halved and negated, exponentiated. -/
def weight (s : EReal) : EReal :=
  Ideal.exp (max s (Ideal.ofBits .f32 0x00000000#32) * Ideal.ofBits .f32 0xBF000000#32)

/-- Negating and dividing by 2 is multiplying by −1/2, on every extended real. -/
theorem weight_host (s : EReal) :
    Ideal.exp (Ideal.div (-(max s (Ideal.ofBits .f32 0x00000000#32))) (Ideal.ofBits .f32 0x40000000#32)) = weight s := by
  unfold weight
  rw [two_val, neg_half_val, Ideal.div_coe (by norm_num : (2 : ℝ) ≠ 0), EReal.coe_neg, neg_mul, mul_neg]

/-- The squared distance of two vectors in expanded form, the factor 2 the word of 2.0. -/
def sqd {φ : Type} [Fintype φ] (a c : φ → EReal) : EReal :=
  (∑ f, a f * a f) + (∑ f, c f * c f) - Ideal.ofBits .f32 0x40000000#32 * ∑ f, a f * c f

/-- One layer at row r: the sum over the centres of the pair's weight times the centre's coefficient. -/
def layerAt {a n d : ℕ} (A : (⟨2, ![a, d]⟩ : Shape).Idx → EReal) (C : (⟨2, ![n, d]⟩ : Shape).Idx → EReal)
    (w : Fin n → EReal) (r : Fin a) : EReal :=
  ∑ j : Fin n, weight (sqd (fun f : Fin d => A (ix2 r f)) (fun f : Fin d => C (ix2 j f))) * w j

/-- The first layer: rows of X against the centres C, coefficients the columns of a [20, 8192] array. -/
def encode (X C : (⟨2, ![8192, 784]⟩ : Shape).Idx → EReal) (A : (⟨2, ![20, 8192]⟩ : Shape).Idx → EReal) :
    (⟨2, ![8192, 20]⟩ : Shape).Idx → EReal :=
  fun i => layerAt X C (fun j => A (ix2 (i 1) j)) (i 0)

/-- The second layer: rows of Z against the centres C, coefficients the rows of a [8192, 784] array. -/
def decode (Z C : (⟨2, ![8192, 20]⟩ : Shape).Idx → EReal) (A : (⟨2, ![8192, 784]⟩ : Shape).Idx → EReal) :
    (⟨2, ![8192, 784]⟩ : Shape).Idx → EReal :=
  fun i => layerAt Z C (fun j => A (ix2 j (i 1))) (i 0)

/-- The network: the second layer on the first layer's output. -/
def network (X Ce : (⟨2, ![8192, 784]⟩ : Shape).Idx → EReal) (Cd : (⟨2, ![8192, 20]⟩ : Shape).Idx → EReal)
    (Ae : (⟨2, ![20, 8192]⟩ : Shape).Idx → EReal) (Ad : (⟨2, ![8192, 784]⟩ : Shape).Idx → EReal) :
    (⟨2, ![8192, 784]⟩ : Shape).Idx → EReal :=
  decode (encode X Ce Ae) Cd Ad

/-- 8 blocks of 1024 positions is not empty. -/
theorem blocks_pos : 0 < 8 * 1024 := by norm_num

/-- Position r of block b among 8192 (wrapped for b past the last block, so that it is total). -/
abbrev pos (b : ℕ) (r : Fin 1024) : Fin 8192 := BlockSum.pos 8 1024 blocks_pos b r

/-- The value of a position inside the range. -/
theorem pos_val (b : ℕ) (hb : b < 8) (r : Fin 1024) : (pos b r).val = b * 1024 + r.val := by
  show (b * 1024 + r.val) % (8 * 1024) = _
  have := r.isLt
  omega

/-- A sum over the 8192 centres is the sum of its 8 blocks of 1024 taken one after the other. -/
theorem sum_blocks (f : Fin 8192 → EReal) : ∑ b ∈ Finset.range 8, ∑ r : Fin 1024, f (pos b r) = ∑ j : Fin 8192, f j :=
  BlockSum.sum_range_blocks 8 1024 blocks_pos f

end Cert.Rbf

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.EncPayload.lean ====
/-
  The first layer's kernel body, read entry by entry over the extended reals.

  The body's one arithmetic term takes the three input blocks and the output block's contents. At entry (p, q) of the
  output block it is: what the block held there, plus the sum over the 1024 centres of this centre-block of

      weight(|row p|² + |centre n|² − 2 · (row p · centre n)) · (centre n's coefficient for column q).

  The sums of squares are lane sums, the row's kept as a column and spread along the lanes, the centres' laid along
  the lanes and spread down the rows; the scalar products are one matrix product against the transposed centre block;
  the changes of float format are the identity on extended reals. The final sum over the centres is a second matrix
  product into a zero accumulator.

  point_apply restates this with the three blocks given as pieces of whole arrays: rows i·1024 + p of the row array,
  centres b·1024 + n of the centre array and of the coefficient array.
-/
import proofs.«178752_j29918742184170_2_alg».proof.Proof.Gen.KernelIdeal.Skeleton
import proofs.«178752_j29918742184170_2_alg».proof.Proof.RbfSpec
import proofs.«178752_j29918742184170_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.EncPayload

open Cert.KernelIdeal Cert.KernelIdeal.Gen Cert.Rbf

/-- A lane sum of a [a, d] array from the zero word, read at row r: the sum over the lanes. -/
theorem laneSum_apply {a d : ℕ} (src : FVec Ideal (⟨2, ![a, d]⟩ : Shape) .f32)
    (h : (⟨2, ![a, d]⟩ : Shape).Reduces [1] (⟨1, ![a]⟩ : Shape)) (hφ : FKind.Formats FTy.f32)
    (hacc : (0x00000000#32 : BitVec 32) = 0x00000000#32) (r : Fin a) :
    multiReduction .add [1] (⟨1, ![a]⟩ : Shape) src 0x00000000#32 h hφ hacc (ix1 r) = ∑ f : Fin d, src (ix2 r f) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The dimension numbers of dot_S1024x784_S784x1024_S1024x1024_1_0_0_1_n_n, coordinate by coordinate: the left operand is read at (row, k), the right at (k, column). -/
theorem cross_lhs0 (i : S1024x1024.Idx) (q : dot_S1024x784_S784x1024_S1024x1024_1_0_0_1_n_n.contr.Idx) : (dot_S1024x784_S784x1024_S1024x1024_1_0_0_1_n_n.lhsIdx i q 0).val = (i 0).val := by
  unfold DotDims.lhsIdx
  rw [dif_neg (show ¬(0 : Fin S1024x784.rank) ∈ dot_S1024x784_S784x1024_S1024x1024_1_0_0_1_n_n.lhsBatch by decide), dif_pos (show (0 : Fin S1024x784.rank) ∈ dot_S1024x784_S784x1024_S1024x1024_1_0_0_1_n_n.lhsNonContracting by decide)]
  rfl
theorem cross_lhs1 (i : S1024x1024.Idx) (q : dot_S1024x784_S784x1024_S1024x1024_1_0_0_1_n_n.contr.Idx) : (dot_S1024x784_S784x1024_S1024x1024_1_0_0_1_n_n.lhsIdx i q 1).val = (q ⟨0, by decide⟩).val :=
  dot_S1024x784_S784x1024_S1024x1024_1_0_0_1_n_n.lhsIdx_val_of_single rfl i q
theorem cross_rhs0 (i : S1024x1024.Idx) (q : dot_S1024x784_S784x1024_S1024x1024_1_0_0_1_n_n.contr.Idx) : (dot_S1024x784_S784x1024_S1024x1024_1_0_0_1_n_n.rhsIdx i q 0).val = (q ⟨0, by decide⟩).val :=
  dot_S1024x784_S784x1024_S1024x1024_1_0_0_1_n_n.rhsIdx_val_of_single rfl i q
theorem cross_rhs1 (i : S1024x1024.Idx) (q : dot_S1024x784_S784x1024_S1024x1024_1_0_0_1_n_n.contr.Idx) : (dot_S1024x784_S784x1024_S1024x1024_1_0_0_1_n_n.rhsIdx i q 1).val = (i 1).val := by
  unfold DotDims.rhsIdx
  rw [dif_neg (show ¬(1 : Fin S784x1024.rank) ∈ dot_S1024x784_S784x1024_S1024x1024_1_0_0_1_n_n.rhsBatch by decide), dif_pos (show (1 : Fin S784x1024.rank) ∈ dot_S1024x784_S784x1024_S1024x1024_1_0_0_1_n_n.rhsNonContracting by decide)]
  rfl

/-- A [1024, 784] block times a [784, 1024] block into a zero accumulator, at (p, q): the sum over k of left (p, k) · right (k, q). -/
theorem cross_apply {φl φr : FTy} (l : FVec Ideal S1024x784 φl) (r : FVec Ideal S784x1024 φr) (p : Fin 1024) (q : Fin 1024) :
    FloatOps.matmul dot_S1024x784_S784x1024_S1024x1024_1_0_0_1_n_n none l r (constant S1024x1024 .f32 0x00000000#32) (ix2 p q)
      = ∑ k : Fin 784, l (ix2 p k) * r (ix2 k q) := by
  rw [Ideal.matmul_constant_zero_apply, ← Equiv.sum_comp (contrEquiv1 dot_S1024x784_S784x1024_S1024x1024_1_0_0_1_n_n 784 rfl rfl).symm]
  refine Finset.sum_congr rfl fun k _ => ?_
  have hk := contrEquiv1_symm_val dot_S1024x784_S784x1024_S1024x1024_1_0_0_1_n_n 784 rfl rfl k
  have el : dot_S1024x784_S784x1024_S1024x1024_1_0_0_1_n_n.lhsIdx (ix2 p q) ((contrEquiv1 dot_S1024x784_S784x1024_S1024x1024_1_0_0_1_n_n 784 rfl rfl).symm k) = ix2 p k := funext fun ax => Fin.ext (by
    match ax with
    | ⟨0, _⟩ => exact cross_lhs0 _ _
    | ⟨1, _⟩ => exact (cross_lhs1 _ _).trans hk)
  have er : dot_S1024x784_S784x1024_S1024x1024_1_0_0_1_n_n.rhsIdx (ix2 p q) ((contrEquiv1 dot_S1024x784_S784x1024_S1024x1024_1_0_0_1_n_n 784 rfl rfl).symm k) = ix2 k q := funext fun ax => Fin.ext (by
    match ax with
    | ⟨0, _⟩ => exact (cross_rhs0 _ _).trans hk
    | ⟨1, _⟩ => exact cross_rhs1 _ _)
  rw [el, er]

/-- The dimension numbers of dot_S1024x1024_S1024x20_S1024x20_1_0_0_1_n_n, coordinate by coordinate: the left operand is read at (row, k), the right at (k, column). -/
theorem mix_lhs0 (i : S1024x20.Idx) (q : dot_S1024x1024_S1024x20_S1024x20_1_0_0_1_n_n.contr.Idx) : (dot_S1024x1024_S1024x20_S1024x20_1_0_0_1_n_n.lhsIdx i q 0).val = (i 0).val := by
  unfold DotDims.lhsIdx
  rw [dif_neg (show ¬(0 : Fin S1024x1024.rank) ∈ dot_S1024x1024_S1024x20_S1024x20_1_0_0_1_n_n.lhsBatch by decide), dif_pos (show (0 : Fin S1024x1024.rank) ∈ dot_S1024x1024_S1024x20_S1024x20_1_0_0_1_n_n.lhsNonContracting by decide)]
  rfl
theorem mix_lhs1 (i : S1024x20.Idx) (q : dot_S1024x1024_S1024x20_S1024x20_1_0_0_1_n_n.contr.Idx) : (dot_S1024x1024_S1024x20_S1024x20_1_0_0_1_n_n.lhsIdx i q 1).val = (q ⟨0, by decide⟩).val :=
  dot_S1024x1024_S1024x20_S1024x20_1_0_0_1_n_n.lhsIdx_val_of_single rfl i q
theorem mix_rhs0 (i : S1024x20.Idx) (q : dot_S1024x1024_S1024x20_S1024x20_1_0_0_1_n_n.contr.Idx) : (dot_S1024x1024_S1024x20_S1024x20_1_0_0_1_n_n.rhsIdx i q 0).val = (q ⟨0, by decide⟩).val :=
  dot_S1024x1024_S1024x20_S1024x20_1_0_0_1_n_n.rhsIdx_val_of_single rfl i q
theorem mix_rhs1 (i : S1024x20.Idx) (q : dot_S1024x1024_S1024x20_S1024x20_1_0_0_1_n_n.contr.Idx) : (dot_S1024x1024_S1024x20_S1024x20_1_0_0_1_n_n.rhsIdx i q 1).val = (i 1).val := by
  unfold DotDims.rhsIdx
  rw [dif_neg (show ¬(1 : Fin S1024x20.rank) ∈ dot_S1024x1024_S1024x20_S1024x20_1_0_0_1_n_n.rhsBatch by decide), dif_pos (show (1 : Fin S1024x20.rank) ∈ dot_S1024x1024_S1024x20_S1024x20_1_0_0_1_n_n.rhsNonContracting by decide)]
  rfl

/-- A [1024, 1024] block times a [1024, 20] block into a zero accumulator, at (p, q): the sum over k of left (p, k) · right (k, q). -/
theorem mix_apply {φl φr : FTy} (l : FVec Ideal S1024x1024 φl) (r : FVec Ideal S1024x20 φr) (p : Fin 1024) (q : Fin 20) :
    FloatOps.matmul dot_S1024x1024_S1024x20_S1024x20_1_0_0_1_n_n none l r (constant S1024x20 .f32 0x00000000#32) (ix2 p q)
      = ∑ k : Fin 1024, l (ix2 p k) * r (ix2 k q) := by
  rw [Ideal.matmul_constant_zero_apply, ← Equiv.sum_comp (contrEquiv1 dot_S1024x1024_S1024x20_S1024x20_1_0_0_1_n_n 1024 rfl rfl).symm]
  refine Finset.sum_congr rfl fun k _ => ?_
  have hk := contrEquiv1_symm_val dot_S1024x1024_S1024x20_S1024x20_1_0_0_1_n_n 1024 rfl rfl k
  have el : dot_S1024x1024_S1024x20_S1024x20_1_0_0_1_n_n.lhsIdx (ix2 p q) ((contrEquiv1 dot_S1024x1024_S1024x20_S1024x20_1_0_0_1_n_n 1024 rfl rfl).symm k) = ix2 p k := funext fun ax => Fin.ext (by
    match ax with
    | ⟨0, _⟩ => exact mix_lhs0 _ _
    | ⟨1, _⟩ => exact (mix_lhs1 _ _).trans hk)
  have er : dot_S1024x1024_S1024x20_S1024x20_1_0_0_1_n_n.rhsIdx (ix2 p q) ((contrEquiv1 dot_S1024x1024_S1024x20_S1024x20_1_0_0_1_n_n 1024 rfl rfl).symm k) = ix2 k q := funext fun ax => Fin.ext (by
    match ax with
    | ⟨0, _⟩ => exact (mix_rhs0 _ _).trans hk
    | ⟨1, _⟩ => exact mix_rhs1 _ _)
  rw [el, er]

/-- A row's sum kept as a column and spread along the lanes, at (p, n): the sum over the features of row p. -/
theorem rowNorm_apply (src : FVec Ideal S1024x784 .f32) (h : S1024x784.Reduces [1] S1024) (hφ : FKind.Formats FTy.f32)
    (hacc : (0x00000000#32 : BitVec 32) = 0x00000000#32) (hc : S1024.ShapeCasts S1024x1) (hb : S1024x1.Broadcasts S1024x1024)
    (p n : Fin 1024) :
    broadcastTo S1024x1024 (shapeCast S1024x1 (multiReduction .add [1] S1024 src 0x00000000#32 h hφ hacc) hc) hb (ix2 p n)
      = ∑ f : Fin 784, src (ix2 p f) :=
  (Cert.ColumnForms.broadcastTo_a1_ab_apply _ hb p n).trans
    ((Cert.ColumnForms.shapeCast_a_a1_apply _ hc p 0).trans (laneSum_apply src h hφ hacc p))

/-- A row's sum laid along the lanes and spread down the rows, at (p, n): the sum over the features of row n. -/
theorem colNorm_apply (src : FVec Ideal S1024x784 .f32) (h : S1024x784.Reduces [1] S1024) (hφ : FKind.Formats FTy.f32)
    (hacc : (0x00000000#32 : BitVec 32) = 0x00000000#32) (hc : S1024.ShapeCasts S1x1024) (hb : S1x1024.Broadcasts S1024x1024)
    (p n : Fin 1024) :
    broadcastTo S1024x1024 (shapeCast S1x1024 (multiReduction .add [1] S1024 src 0x00000000#32 h hφ hacc) hc) hb (ix2 p n)
      = ∑ f : Fin 784, src (ix2 n f) :=
  (broadcastTo_1b_ab_apply _ hb p n).trans ((shapeCast_a_1a_apply _ hc 0 n).trans (laneSum_apply src h hφ hacc n))

/-- The rows against the transposed centres, at (p, n): the scalar product of row p and centre n. -/
theorem crossT_apply {φl φr : FTy} (l : FVec Ideal S1024x784 φl) (y : FVec Ideal S1024x784 φr) (ht : S1024x784.Transposes [1, 0] S784x1024)
    (p n : Fin 1024) :
    FloatOps.matmul dot_S1024x784_S784x1024_S1024x1024_1_0_0_1_n_n none l (transpose S784x1024 [1, 0] y ht) (constant S1024x1024 .f32 0x00000000#32) (ix2 p n)
      = ∑ f : Fin 784, l (ix2 p f) * y (ix2 n f) :=
  (cross_apply l _ p n).trans (Finset.sum_congr rfl fun f _ => congrArg (l (ix2 p f) * ·) (transpose_ix2_apply y ht f n))

/-- The body's arithmetic at entry (p, l) of the output block: what the block held, plus the sum over this
    centre-block's 1024 centres of the pair's weight times the centre's coefficient (the coefficient block is
    [20, 1024], read transposed). -/
theorem pay_apply (x0 : Vec Ideal S1024x784 .f32) (x1 : Vec Ideal S1024x784 .bf16) (x2 : Vec Ideal S20x1024 .f32)
    (xo : Vec Ideal S1024x20 .f32) (p : Fin 1024) (l : Fin 20) :
    k0_pay2 (F := Ideal) x0 x1 x2 xo (ix2 p l)
      = xo (ix2 p l) + ∑ n : Fin 1024, weight (sqd (fun f : Fin 784 => x0 (ix2 p f)) (fun f : Fin 784 => x1 (ix2 n f))) * x2 (ix2 l n) := by
  unfold k0_pay2
  refine congrArg₂ (· + ·) (congrFun (shapeCast_self xo _) _) ?_
  refine (mix_apply _ _ p l).trans (Finset.sum_congr rfl fun n _ => congrArg₂ (· * ·) ?_ (transpose_ix2_apply _ _ n l))
  unfold weight sqd
  refine congrArg Ideal.exp (congrArg (· * Ideal.ofBits .f32 0xBF000000#32) (congrArg (max · (Ideal.ofBits .f32 0x00000000#32)) ?_))
  refine congrArg₂ (· - ·) (congrArg₂ (· + ·) (rowNorm_apply _ _ _ _ _ _ p n) ?_) (congrArg (Ideal.ofBits .f32 0x40000000#32 * ·) ?_)
  · refine (colNorm_apply _ _ _ _ _ _ p n).trans (Finset.sum_congr rfl fun f _ => ?_)
    show (shapeCast S1024x784 x1 _) (ix2 n f) * (shapeCast S1024x784 x1 _) (ix2 n f) = _
    rw [shapeCast_self]
  · refine (crossT_apply _ _ _ p n).trans (Finset.sum_congr rfl fun f _ => ?_)
    show x0 (ix2 p f) * (shapeCast S1024x784 x1 _) (ix2 n f) = _
    rw [shapeCast_self]

/-- One centre-block's contribution to entry (p, l) of row-block i of the first layer: the sum over the block's 1024
    centres, the arrays whole. -/
def blockTerm (X C : (⟨2, ![8192, 784]⟩ : Shape).Idx → EReal) (A : (⟨2, ![20, 8192]⟩ : Shape).Idx → EReal)
    (i b : ℕ) (p : Fin 1024) (l : Fin 20) : EReal :=
  ∑ n : Fin 1024, weight (sqd (fun f : Fin 784 => X (ix2 (pos i p) f)) (fun f : Fin 784 => C (ix2 (pos b n) f))) * A (ix2 l (pos b n))

/-- The body at a point whose blocks are row-block i and centre-block b of whole arrays: the block's contents plus
    that centre-block's contribution. -/
theorem point_apply (X C : (⟨2, ![8192, 784]⟩ : Shape).Idx → EReal) (A : (⟨2, ![20, 8192]⟩ : Shape).Idx → EReal)
    (x0 : Vec Ideal S1024x784 .f32) (x1 : Vec Ideal S1024x784 .bf16) (x2 : Vec Ideal S20x1024 .f32)
    (xo : Vec Ideal S1024x20 .f32) (i b : ℕ)
    (h0 : ∀ (r : Fin 1024) (f : Fin 784), x0 (ix2 r f) = X (ix2 (pos i r) f))
    (h1 : ∀ (n : Fin 1024) (f : Fin 784), x1 (ix2 n f) = C (ix2 (pos b n) f))
    (h2 : ∀ (l : Fin 20) (n : Fin 1024), x2 (ix2 l n) = A (ix2 l (pos b n)))
    (p : Fin 1024) (l : Fin 20) :
    k0_pay2 (F := Ideal) x0 x1 x2 xo (ix2 p l) = xo (ix2 p l) + blockTerm X C A i b p l := by
  rw [pay_apply]
  unfold blockTerm
  refine congrArg (xo (ix2 p l) + ·) (Finset.sum_congr rfl fun n _ => ?_)
  rw [h2 l n, funext (h0 p), funext (h1 n)]

/-- The zero block the reset stores, at any entry: the extended real 0. -/
theorem zero_apply (j : S1024x20.Idx) : k0_pay1 (F := Ideal) j = 0 := Ideal.ofBits_zero_f32

end Cert.KernelIdeal.EncPayload

end
-- ==== Proof.EncValue.lean ====
/-
  The first layer's region: what its result array holds when the region ends, as one function of the arrays the
  region is entered with.

  The grid is 8 row-blocks by 8 centre-blocks, the centre-block moving fastest: point t is row-block t / 8 and
  centre-block t % 8. At that point the three input blocks are rows (t / 8)·1024 … of the row array and centres
  (t % 8)·1024 … of the centre array and of the coefficient array (block reads, by the windows' index maps decided
  over the grid). The output block stays in place across a row-block's 8 points: it is reset at centre-block 0 and
  each point adds its centre-block's contribution, so after point t it holds the sum of the contributions of
  centre-blocks 0 … t % 8 of row-block t / 8 (outsAt_eq, by induction on the point). It is written back after
  centre-block 7, when that sum runs over all 8 blocks, which is the sum over all 8192 centres: the layer's value
  at those rows (flushed_eq). The 8 written-back blocks tile the result array (cover), so the array ends at the
  layer's value everywhere (final).
-/
import proofs.«178752_j29918742184170_2_alg».proof.Proof.Gen.KernelIdeal.Frame
import proofs.«178752_j29918742184170_2_alg».proof.Proof.EncPieces
import proofs.«178752_j29918742184170_2_alg».proof.Proof.EncPayload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.EncValue

open Cert.KernelIdeal Cert.KernelIdeal.Gen Cert.Rbf Cert.KernelIdeal.EncPayload

variable (V : (c : Dev nD) → (b : Ref sig .tc) → Buf (Elt Ideal) ((c : Thread nD τ).loc b))

/-- The windows' index maps over the grid: the row window and the output window follow the row-block, the centre and
    coefficient windows the centre-block. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- A point is below 64. -/
theorem t_lt (t : Fin cfg0.N) : t.val < 64 := lt_of_lt_of_eq t.isLt N_0

/-- The row window's block at point t: rows (t / 8)·1024 + r of the row array. -/
theorem blk0 (c : Dev nD) (t : Fin cfg0.N) (r : Fin 1024) (f : Fin 784) :
    (iblk0 V c 0 t : Vec Ideal S1024x784 .f32) (ix2 r f) = V c main_arg0 (ix2 (pos (t.val / 8) r) f) := by
  obtain ⟨e0, e1, -⟩ := idx_facts t
  have ht := t_lt t
  unfold iblk0
  rw [View.read_apply]
  show V c main_arg0 _ = V c main_arg0 _
  refine congrArg (V c main_arg0) (funext fun a => Fin.ext ?_)
  match a with
  | ⟨0, _⟩ =>
    show win0_0.index t (0 : Fin 2) * 1024 + 1 * r.val = (pos (t.val / 8) r).val
    rw [e0, pos_val _ (by omega) r]; omega
  | ⟨1, _⟩ =>
    show win0_0.index t (1 : Fin 2) * 784 + 1 * f.val = f.val
    rw [e1]; omega

/-- The centre window's block at point t: centres (t % 8)·1024 + n of the centre array. -/
theorem blk1 (c : Dev nD) (t : Fin cfg0.N) (n : Fin 1024) (f : Fin 784) :
    (iblk0 V c 1 t : Vec Ideal S1024x784 .bf16) (ix2 n f) = V c main_v0 (ix2 (pos (t.val % 8) n) f) := by
  obtain ⟨-, -, e0, e1, -⟩ := idx_facts t
  unfold iblk0
  rw [View.read_apply]
  show V c main_v0 _ = V c main_v0 _
  refine congrArg (V c main_v0) (funext fun a => Fin.ext ?_)
  match a with
  | ⟨0, _⟩ =>
    show win0_1.index t (0 : Fin 2) * 1024 + 1 * n.val = (pos (t.val % 8) n).val
    rw [e0, pos_val _ (by omega) n]; omega
  | ⟨1, _⟩ =>
    show win0_1.index t (1 : Fin 2) * 784 + 1 * f.val = f.val
    rw [e1]; omega

/-- The coefficient window's block at point t: columns (t % 8)·1024 + n of the [20, 8192] coefficient array. -/
theorem blk2 (c : Dev nD) (t : Fin cfg0.N) (l : Fin 20) (n : Fin 1024) :
    (iblk0 V c 2 t : Vec Ideal S20x1024 .f32) (ix2 l n) = V c main_arg3 (ix2 l (pos (t.val % 8) n)) := by
  obtain ⟨-, -, -, -, e0, e1, -⟩ := idx_facts t
  unfold iblk0
  rw [View.read_apply]
  show V c main_arg3 _ = V c main_arg3 _
  refine congrArg (V c main_arg3) (funext fun a => Fin.ext ?_)
  match a with
  | ⟨0, _⟩ =>
    show win0_2.index t (0 : Fin 2) * 20 + 1 * l.val = l.val
    rw [e0]; omega
  | ⟨1, _⟩ =>
    show win0_2.index t (1 : Fin 2) * 1024 + 1 * n.val = (pos (t.val % 8) n).val
    rw [e1, pos_val _ (by omega) n]; omega

/-- The running value of a row-block's output block after its centre-blocks 0 … k. -/
def acc (X C : (⟨2, ![8192, 784]⟩ : Shape).Idx → EReal) (A : (⟨2, ![20, 8192]⟩ : Shape).Idx → EReal) (i k : ℕ) : S1024x20.Idx → EReal :=
  fun j => ∑ b ∈ Finset.range (k + 1), blockTerm X C A i b (j 0) (j 1)

/-- All 8 centre-blocks' contributions are the layer's value at the row. -/
theorem acc_full (X C : (⟨2, ![8192, 784]⟩ : Shape).Idx → EReal) (A : (⟨2, ![20, 8192]⟩ : Shape).Idx → EReal) (i : ℕ) (p : Fin 1024) (q : Fin 20) :
    ∑ b ∈ Finset.range 8, blockTerm X C A i b p q = encode X C A (ix2 (pos i p) q) :=
  sum_blocks (fun j : Fin 8192 => weight (sqd (fun f : Fin 784 => X (ix2 (pos i p) f)) (fun f : Fin 784 => C (ix2 j f))) * A (ix2 q j))

/-- A resetting point leaves its centre-block's contribution alone (centre-block 0: the first of the row-block). -/
theorem caseA (c : Dev nD) (t : Fin cfg0.N) (h0 : t.val % 8 = 0) :
    outsAt0 V c t.val t.isLt = acc (V c main_arg0) (V c main_v0) (V c main_arg3) (t.val / 8) (t.val % 8) := by
  rw [outsAt0_A V c t h0, EncPieces.out_A]
  funext j
  obtain ⟨p, q, rfl⟩ : ∃ (p : Fin 1024) (q : Fin 20), j = ix2 p q := ⟨j 0, j 1, eq_ix2 j⟩
  refine (point_apply (V c main_arg0) (V c main_v0) (V c main_arg3) (iblk0 V c 0 t) (iblk0 V c 1 t) (iblk0 V c 2 t)
    (k0_pay1 (F := Ideal)) (t.val / 8) (t.val % 8) (blk0 V c t) (blk1 V c t) (blk2 V c t) p q).trans ?_
  rw [zero_apply, zero_add, h0]
  show _ = ∑ b ∈ Finset.range (0 + 1), blockTerm _ _ _ (t.val / 8) b p q
  rw [Finset.sum_range_one]

/-- Any other point adds its centre-block's contribution to the running value of the point before. -/
theorem caseB (c : Dev nD) (t : Fin cfg0.N) (h0 : ¬t.val % 8 = 0)
    (ih : outsAt0 V c (t.val - 1) (Nat.lt_of_le_of_lt (Nat.sub_le _ _) t.isLt)
      = acc (V c main_arg0) (V c main_v0) (V c main_arg3) ((t.val - 1) / 8) ((t.val - 1) % 8)) :
    outsAt0 V c t.val t.isLt = acc (V c main_arg0) (V c main_v0) (V c main_arg3) (t.val / 8) (t.val % 8) := by
  rw [outsAt0_B V c t h0, EncPieces.out_B, ih]
  funext j
  obtain ⟨p, q, rfl⟩ : ∃ (p : Fin 1024) (q : Fin 20), j = ix2 p q := ⟨j 0, j 1, eq_ix2 j⟩
  refine (point_apply (V c main_arg0) (V c main_v0) (V c main_arg3) (iblk0 V c 0 t) (iblk0 V c 1 t) (iblk0 V c 2 t)
    _ (t.val / 8) (t.val % 8) (blk0 V c t) (blk1 V c t) (blk2 V c t) p q).trans ?_
  have e1 : (t.val - 1) / 8 = t.val / 8 := by omega
  have e2 : t.val % 8 = (t.val - 1) % 8 + 1 := by omega
  show (∑ b ∈ Finset.range ((t.val - 1) % 8 + 1), blockTerm _ _ _ ((t.val - 1) / 8) b p q) + blockTerm _ _ _ (t.val / 8) (t.val % 8) p q
    = ∑ b ∈ Finset.range (t.val % 8 + 1), blockTerm _ _ _ (t.val / 8) b p q
  rw [e1, e2]
  exact (Finset.sum_range_succ _ _).symm

/-- After point n the output block holds the contributions of centre-blocks 0 … n % 8 of row-block n / 8. -/
theorem outsAt_eq (c : Dev nD) : ∀ (n : ℕ) (h : n < cfg0.N),
    outsAt0 V c n h = acc (V c main_arg0) (V c main_v0) (V c main_arg3) (n / 8) (n % 8)
  | 0, h => caseA V c ⟨0, h⟩ rfl
  | n + 1, h =>
    if h0 : (n + 1) % 8 = 0 then caseA V c ⟨n + 1, h⟩ h0
    else caseB V c ⟨n + 1, h⟩ h0 (outsAt_eq c n (Nat.lt_of_succ_lt h))

/-- What a write-back writes: the block, at its rows, of the layer's value of the entry arrays. -/
theorem flushed_eq (c : Dev nD) (t : Fin cfg0.N) (hf : (cfg0.win 3).flush t = true) :
    (dat0 V c).flushed 3 t
      = ((cfg0.win 3).blk t).view.read (Elt Ideal) (encode (V c main_arg0) (V c main_v0) (V c main_arg3)) := by
  have h7 : t.val % 8 = 7 := (flush0_3 t).mp hf
  obtain ⟨-, -, -, -, -, -, e0, e1⟩ := idx_facts t
  have ht := t_lt t
  show (cfg0.win 3).cut (grid0.coords t) ((dat0 V c).after 3 t) = _
  rw [after0_3, outsAt_eq]
  funext j
  obtain ⟨p, q, rfl⟩ : ∃ (p : Fin 1024) (q : Fin 20), j = ix2 p q := ⟨j 0, j 1, eq_ix2 j⟩
  rw [View.read_apply]
  have hi : ((cfg0.win 3).blk t).view.emb (ix2 p q) = ix2 (pos (t.val / 8) p) q := by
    funext a; apply Fin.ext
    match a with
    | ⟨0, _⟩ =>
      show win0_3.index t (0 : Fin 2) * 1024 + 1 * p.val = (pos (t.val / 8) p).val
      rw [e0, pos_val _ (by omega) p]; omega
    | ⟨1, _⟩ =>
      show win0_3.index t (1 : Fin 2) * 20 + 1 * q.val = q.val
      rw [e1]; omega
  rw [hi]
  refine Eq.trans ?_ (acc_full (V c main_arg0) (V c main_v0) (V c main_arg3) (t.val / 8) p q)
  show ∑ b ∈ Finset.range (t.val % 8 + 1), blockTerm _ _ _ (t.val / 8) b p q = _
  rw [h7]

/-- An index of the result array is in point t's block iff each coordinate is in the block's range on its axis. -/
theorem mem_blk (t : Fin cfg0.N) (i : S8192x20.Idx) :
    i ∈ ((cfg0.win 3).blk t).view.set ↔ ∀ a : Fin 2, win0_3.index t a * S1024x20.size a ≤ (i a).val ∧ (i a).val < win0_3.index t a * S1024x20.size a + S1024x20.size a := by
  show i ∈ ((View.whole main_v1).slice (win0_3.rect t)).set ↔ _
  rw [View.set_slice_whole, Rect.mem_set_unit]
  exact Iff.rfl

/-- Every index of the result array lies in the block some write-back writes: the one after the last centre-block
    of its row-block. -/
theorem cover (i : S8192x20.Idx) : ∃ t : Fin cfg0.N, (cfg0.win 3).flush t = true ∧ i ∈ ((cfg0.win 3).blk t).view.set := by
  have hi0 : (i 0).val < 8192 := (i 0).isLt
  have hi1 : (i 1).val < 20 := (i 1).isLt
  have hN : cfg0.N = 64 := N_0
  let t : Fin cfg0.N := ⟨8 * ((i 0).val / 1024) + 7, by rw [hN]; omega⟩
  have htv : t.val = 8 * ((i 0).val / 1024) + 7 := rfl
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0, htv]; omega
  | ⟨1, _⟩ =>
    show win0_3.index t (1 : Fin 2) * 20 ≤ (i 1).val ∧ (i 1).val < win0_3.index t (1 : Fin 2) * 20 + 20
    rw [e1]; omega

/-- The region's result array ends at the layer's value of the arrays the region is entered with. -/
theorem final (c : Dev nD) :
    (dat0 V c).arrAt 3 cfg0.N = encode (V c main_arg0) (V c main_v0) (V c main_arg3) :=
  (dat0 V c).arrAt_eq_of_cover 3 _ (flushed_eq V c) (cover)

end Cert.KernelIdeal.EncValue

end
-- ==== Proof.DecPieces.lean ====
/-
  What one grid point of the second layer's kernel leaves in its output block, in each of its two control cases, for
  any float values.

  The body's conditional resets the output block to zero at the first centre-block of a row-block and does nothing
  otherwise; then the body loads its three input blocks and the output block, and stores the output block plus this
  centre-block's contribution. So at a resetting point the block ends at the contribution added to the zero block
  (the load of the output block reads back the zeros just stored), and at every other point at the contribution
  added to what the block held before. Both are the body's one arithmetic term, the payload, at the loaded blocks.
-/
import proofs.«178752_j29918742184170_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.DecPieces

open Cert.KernelIdeal Cert.KernelIdeal.Gen

variable {F : FTy → Type} [FloatOps F]

/-- A rank-2 block's zero offsets. -/
theorem hz : (![0, 0] : Fin 2 → Nat) = fun _ => 0 := funext fun a => by fin_cases a <;> rfl

/-- A point that does not reset: the block ends at the payload of the three input blocks and its own contents. -/
theorem out_B (c : Dev nD) (i : grid1.Coords) (arg2 : Memref sig .tc .vmem S1024x20 .f32) (harg2 : arg2.IsWhole) (arg3 : Memref sig .tc .vmem S1024x20 .f32) (harg3 : arg3.IsWhole) (arg4 : Memref sig .tc .vmem S1024x784 .bf16) (harg4 : arg4.IsWhole) (arg5 : Memref sig .tc .vmem S1024x784 .f32) (harg5 : arg5.IsWhole) (hc0 : ¬cond1_0 i)
    (x0 : Vec F S1024x20 .f32) (x1 : Vec F S1024x20 .f32) (x2 : Vec F S1024x784 .bf16) (xo3 : Vec F S1024x784 .f32) :
    out1_B_3 c i arg2 harg2 arg3 harg3 arg4 harg4 arg5 harg5 hc0 x0 x1 x2 xo3 = k1_pay2 x0 x1 x2 xo3 := by
  unfold out1_B_3
  rw [View.read_writes_eq_canon _ _ _ (cover1_B_3 c i arg2 harg2 arg3 harg3 arg4 harg4 arg5 harg5 hc0 x0 x1 x2 xo3)]
  unfold kernelRun1_B
  dsimp only
  rw [View.canon_unit_zero hz]
  simp only [View.readAt_eq_ld, harg2.read_unread, harg3.read_unread, harg4.read_unread, harg5.read_unread,
    View.ld_unit_zero (S := S1024x20) hz, View.ld_unit_zero (S := S1024x20) hz, View.ld_unit_zero (S := S1024x784) hz,
    View.ld_unit_zero (S := S1024x784) hz]

/-- A resetting point: the block ends at the payload of the three input blocks and the zero block. -/
theorem out_A (c : Dev nD) (i : grid1.Coords) (arg2 : Memref sig .tc .vmem S1024x20 .f32) (harg2 : arg2.IsWhole) (arg3 : Memref sig .tc .vmem S1024x20 .f32) (harg3 : arg3.IsWhole) (arg4 : Memref sig .tc .vmem S1024x784 .bf16) (harg4 : arg4.IsWhole) (arg5 : Memref sig .tc .vmem S1024x784 .f32) (harg5 : arg5.IsWhole) (hc0 : cond1_0 i)
    (x0 : Vec F S1024x20 .f32) (x1 : Vec F S1024x20 .f32) (x2 : Vec F S1024x784 .bf16) :
    out1_A_3 c i arg2 harg2 arg3 harg3 arg4 harg4 arg5 harg5 hc0 x0 x1 x2 = k1_pay2 x0 x1 x2 k1_pay1 := by
  unfold out1_A_3
  rw [View.read_writes_eq_canon _ _ _ (cover1_A_3 c i arg2 harg2 arg3 harg3 arg4 harg4 arg5 harg5 hc0 x0 x1 x2)]
  unfold kernelRun1_A
  dsimp only
  sl_unfold_words
  rw [View.canon_cons_unit_zero (S := S1024x784) hz, View.readCov_unit_zero (S := S1024x784) _ hz]
  simp only [View.readAt_eq_ld, harg2.read_unread, harg3.read_unread, harg4.read_unread,
    View.ld_unit_zero (S := S1024x20) hz, View.ld_unit_zero (S := S1024x20) hz, View.ld_unit_zero (S := S1024x784) hz,
    View.ld_unit_zero (S := S1024x784) hz]

end Cert.KernelIdeal.DecPieces

end
-- ==== Proof.DecPayload.lean ====
/-
  The second layer's kernel body, read entry by entry over the extended reals.

  The body's one arithmetic term takes the three input blocks and the output block's contents. At entry (p, q) of the
  output block it is: what the block held there, plus the sum over the 1024 centres of this centre-block of

      weight(|row p|² + |centre n|² − 2 · (row p · centre n)) · (centre n's coefficient for column q).

  The sums of squares are lane sums, the row's kept as a column and spread along the lanes, the centres' laid along
  the lanes and spread down the rows; the scalar products are one matrix product against the transposed centre block;
  the changes of float format are the identity on extended reals. The final sum over the centres is a second matrix
  product into a zero accumulator.

  point_apply restates this with the three blocks given as pieces of whole arrays: rows i·1024 + p of the row array,
  centres b·1024 + n of the centre array and of the coefficient array.
-/
import proofs.«178752_j29918742184170_2_alg».proof.Proof.Gen.KernelIdeal.Skeleton
import proofs.«178752_j29918742184170_2_alg».proof.Proof.RbfSpec
import proofs.«178752_j29918742184170_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.DecPayload

open Cert.KernelIdeal Cert.KernelIdeal.Gen Cert.Rbf

/-- A lane sum of a [a, d] array from the zero word, read at row r: the sum over the lanes. -/
theorem laneSum_apply {a d : ℕ} (src : FVec Ideal (⟨2, ![a, d]⟩ : Shape) .f32)
    (h : (⟨2, ![a, d]⟩ : Shape).Reduces [1] (⟨1, ![a]⟩ : Shape)) (hφ : FKind.Formats FTy.f32)
    (hacc : (0x00000000#32 : BitVec 32) = 0x00000000#32) (r : Fin a) :
    multiReduction .add [1] (⟨1, ![a]⟩ : Shape) src 0x00000000#32 h hφ hacc (ix1 r) = ∑ f : Fin d, src (ix2 r f) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The dimension numbers of dot_S1024x20_S20x1024_S1024x1024_1_0_0_1_n_n, coordinate by coordinate: the left operand is read at (row, k), the right at (k, column). -/
theorem cross_lhs0 (i : S1024x1024.Idx) (q : dot_S1024x20_S20x1024_S1024x1024_1_0_0_1_n_n.contr.Idx) : (dot_S1024x20_S20x1024_S1024x1024_1_0_0_1_n_n.lhsIdx i q 0).val = (i 0).val := by
  unfold DotDims.lhsIdx
  rw [dif_neg (show ¬(0 : Fin S1024x20.rank) ∈ dot_S1024x20_S20x1024_S1024x1024_1_0_0_1_n_n.lhsBatch by decide), dif_pos (show (0 : Fin S1024x20.rank) ∈ dot_S1024x20_S20x1024_S1024x1024_1_0_0_1_n_n.lhsNonContracting by decide)]
  rfl
theorem cross_lhs1 (i : S1024x1024.Idx) (q : dot_S1024x20_S20x1024_S1024x1024_1_0_0_1_n_n.contr.Idx) : (dot_S1024x20_S20x1024_S1024x1024_1_0_0_1_n_n.lhsIdx i q 1).val = (q ⟨0, by decide⟩).val :=
  dot_S1024x20_S20x1024_S1024x1024_1_0_0_1_n_n.lhsIdx_val_of_single rfl i q
theorem cross_rhs0 (i : S1024x1024.Idx) (q : dot_S1024x20_S20x1024_S1024x1024_1_0_0_1_n_n.contr.Idx) : (dot_S1024x20_S20x1024_S1024x1024_1_0_0_1_n_n.rhsIdx i q 0).val = (q ⟨0, by decide⟩).val :=
  dot_S1024x20_S20x1024_S1024x1024_1_0_0_1_n_n.rhsIdx_val_of_single rfl i q
theorem cross_rhs1 (i : S1024x1024.Idx) (q : dot_S1024x20_S20x1024_S1024x1024_1_0_0_1_n_n.contr.Idx) : (dot_S1024x20_S20x1024_S1024x1024_1_0_0_1_n_n.rhsIdx i q 1).val = (i 1).val := by
  unfold DotDims.rhsIdx
  rw [dif_neg (show ¬(1 : Fin S20x1024.rank) ∈ dot_S1024x20_S20x1024_S1024x1024_1_0_0_1_n_n.rhsBatch by decide), dif_pos (show (1 : Fin S20x1024.rank) ∈ dot_S1024x20_S20x1024_S1024x1024_1_0_0_1_n_n.rhsNonContracting by decide)]
  rfl

/-- A [1024, 20] block times a [20, 1024] block into a zero accumulator, at (p, q): the sum over k of left (p, k) · right (k, q). -/
theorem cross_apply {φl φr : FTy} (l : FVec Ideal S1024x20 φl) (r : FVec Ideal S20x1024 φr) (p : Fin 1024) (q : Fin 1024) :
    FloatOps.matmul dot_S1024x20_S20x1024_S1024x1024_1_0_0_1_n_n none l r (constant S1024x1024 .f32 0x00000000#32) (ix2 p q)
      = ∑ k : Fin 20, l (ix2 p k) * r (ix2 k q) := by
  rw [Ideal.matmul_constant_zero_apply, ← Equiv.sum_comp (contrEquiv1 dot_S1024x20_S20x1024_S1024x1024_1_0_0_1_n_n 20 rfl rfl).symm]
  refine Finset.sum_congr rfl fun k _ => ?_
  have hk := contrEquiv1_symm_val dot_S1024x20_S20x1024_S1024x1024_1_0_0_1_n_n 20 rfl rfl k
  have el : dot_S1024x20_S20x1024_S1024x1024_1_0_0_1_n_n.lhsIdx (ix2 p q) ((contrEquiv1 dot_S1024x20_S20x1024_S1024x1024_1_0_0_1_n_n 20 rfl rfl).symm k) = ix2 p k := funext fun ax => Fin.ext (by
    match ax with
    | ⟨0, _⟩ => exact cross_lhs0 _ _
    | ⟨1, _⟩ => exact (cross_lhs1 _ _).trans hk)
  have er : dot_S1024x20_S20x1024_S1024x1024_1_0_0_1_n_n.rhsIdx (ix2 p q) ((contrEquiv1 dot_S1024x20_S20x1024_S1024x1024_1_0_0_1_n_n 20 rfl rfl).symm k) = ix2 k q := funext fun ax => Fin.ext (by
    match ax with
    | ⟨0, _⟩ => exact (cross_rhs0 _ _).trans hk
    | ⟨1, _⟩ => exact cross_rhs1 _ _)
  rw [el, er]

/-- The dimension numbers of dot_S1024x1024_S1024x784_S1024x784_1_0_0_1_n_n, coordinate by coordinate: the left operand is read at (row, k), the right at (k, column). -/
theorem mix_lhs0 (i : S1024x784.Idx) (q : dot_S1024x1024_S1024x784_S1024x784_1_0_0_1_n_n.contr.Idx) : (dot_S1024x1024_S1024x784_S1024x784_1_0_0_1_n_n.lhsIdx i q 0).val = (i 0).val := by
  unfold DotDims.lhsIdx
  rw [dif_neg (show ¬(0 : Fin S1024x1024.rank) ∈ dot_S1024x1024_S1024x784_S1024x784_1_0_0_1_n_n.lhsBatch by decide), dif_pos (show (0 : Fin S1024x1024.rank) ∈ dot_S1024x1024_S1024x784_S1024x784_1_0_0_1_n_n.lhsNonContracting by decide)]
  rfl
theorem mix_lhs1 (i : S1024x784.Idx) (q : dot_S1024x1024_S1024x784_S1024x784_1_0_0_1_n_n.contr.Idx) : (dot_S1024x1024_S1024x784_S1024x784_1_0_0_1_n_n.lhsIdx i q 1).val = (q ⟨0, by decide⟩).val :=
  dot_S1024x1024_S1024x784_S1024x784_1_0_0_1_n_n.lhsIdx_val_of_single rfl i q
theorem mix_rhs0 (i : S1024x784.Idx) (q : dot_S1024x1024_S1024x784_S1024x784_1_0_0_1_n_n.contr.Idx) : (dot_S1024x1024_S1024x784_S1024x784_1_0_0_1_n_n.rhsIdx i q 0).val = (q ⟨0, by decide⟩).val :=
  dot_S1024x1024_S1024x784_S1024x784_1_0_0_1_n_n.rhsIdx_val_of_single rfl i q
theorem mix_rhs1 (i : S1024x784.Idx) (q : dot_S1024x1024_S1024x784_S1024x784_1_0_0_1_n_n.contr.Idx) : (dot_S1024x1024_S1024x784_S1024x784_1_0_0_1_n_n.rhsIdx i q 1).val = (i 1).val := by
  unfold DotDims.rhsIdx
  rw [dif_neg (show ¬(1 : Fin S1024x784.rank) ∈ dot_S1024x1024_S1024x784_S1024x784_1_0_0_1_n_n.rhsBatch by decide), dif_pos (show (1 : Fin S1024x784.rank) ∈ dot_S1024x1024_S1024x784_S1024x784_1_0_0_1_n_n.rhsNonContracting by decide)]
  rfl

/-- A [1024, 1024] block times a [1024, 784] block into a zero accumulator, at (p, q): the sum over k of left (p, k) · right (k, q). -/
theorem mix_apply {φl φr : FTy} (l : FVec Ideal S1024x1024 φl) (r : FVec Ideal S1024x784 φr) (p : Fin 1024) (q : Fin 784) :
    FloatOps.matmul dot_S1024x1024_S1024x784_S1024x784_1_0_0_1_n_n none l r (constant S1024x784 .f32 0x00000000#32) (ix2 p q)
      = ∑ k : Fin 1024, l (ix2 p k) * r (ix2 k q) := by
  rw [Ideal.matmul_constant_zero_apply, ← Equiv.sum_comp (contrEquiv1 dot_S1024x1024_S1024x784_S1024x784_1_0_0_1_n_n 1024 rfl rfl).symm]
  refine Finset.sum_congr rfl fun k _ => ?_
  have hk := contrEquiv1_symm_val dot_S1024x1024_S1024x784_S1024x784_1_0_0_1_n_n 1024 rfl rfl k
  have el : dot_S1024x1024_S1024x784_S1024x784_1_0_0_1_n_n.lhsIdx (ix2 p q) ((contrEquiv1 dot_S1024x1024_S1024x784_S1024x784_1_0_0_1_n_n 1024 rfl rfl).symm k) = ix2 p k := funext fun ax => Fin.ext (by
    match ax with
    | ⟨0, _⟩ => exact mix_lhs0 _ _
    | ⟨1, _⟩ => exact (mix_lhs1 _ _).trans hk)
  have er : dot_S1024x1024_S1024x784_S1024x784_1_0_0_1_n_n.rhsIdx (ix2 p q) ((contrEquiv1 dot_S1024x1024_S1024x784_S1024x784_1_0_0_1_n_n 1024 rfl rfl).symm k) = ix2 k q := funext fun ax => Fin.ext (by
    match ax with
    | ⟨0, _⟩ => exact (mix_rhs0 _ _).trans hk
    | ⟨1, _⟩ => exact mix_rhs1 _ _)
  rw [el, er]

/-- A row's sum kept as a column and spread along the lanes, at (p, n): the sum over the features of row p. -/
theorem rowNorm_apply (src : FVec Ideal S1024x20 .f32) (h : S1024x20.Reduces [1] S1024) (hφ : FKind.Formats FTy.f32)
    (hacc : (0x00000000#32 : BitVec 32) = 0x00000000#32) (hc : S1024.ShapeCasts S1024x1) (hb : S1024x1.Broadcasts S1024x1024)
    (p n : Fin 1024) :
    broadcastTo S1024x1024 (shapeCast S1024x1 (multiReduction .add [1] S1024 src 0x00000000#32 h hφ hacc) hc) hb (ix2 p n)
      = ∑ f : Fin 20, src (ix2 p f) :=
  (Cert.ColumnForms.broadcastTo_a1_ab_apply _ hb p n).trans
    ((Cert.ColumnForms.shapeCast_a_a1_apply _ hc p 0).trans (laneSum_apply src h hφ hacc p))

/-- A row's sum laid along the lanes and spread down the rows, at (p, n): the sum over the features of row n. -/
theorem colNorm_apply (src : FVec Ideal S1024x20 .f32) (h : S1024x20.Reduces [1] S1024) (hφ : FKind.Formats FTy.f32)
    (hacc : (0x00000000#32 : BitVec 32) = 0x00000000#32) (hc : S1024.ShapeCasts S1x1024) (hb : S1x1024.Broadcasts S1024x1024)
    (p n : Fin 1024) :
    broadcastTo S1024x1024 (shapeCast S1x1024 (multiReduction .add [1] S1024 src 0x00000000#32 h hφ hacc) hc) hb (ix2 p n)
      = ∑ f : Fin 20, src (ix2 n f) :=
  (broadcastTo_1b_ab_apply _ hb p n).trans ((shapeCast_a_1a_apply _ hc 0 n).trans (laneSum_apply src h hφ hacc n))

/-- The rows against the transposed centres, at (p, n): the scalar product of row p and centre n. -/
theorem crossT_apply {φl φr : FTy} (l : FVec Ideal S1024x20 φl) (y : FVec Ideal S1024x20 φr) (ht : S1024x20.Transposes [1, 0] S20x1024)
    (p n : Fin 1024) :
    FloatOps.matmul dot_S1024x20_S20x1024_S1024x1024_1_0_0_1_n_n none l (transpose S20x1024 [1, 0] y ht) (constant S1024x1024 .f32 0x00000000#32) (ix2 p n)
      = ∑ f : Fin 20, l (ix2 p f) * y (ix2 n f) :=
  (cross_apply l _ p n).trans (Finset.sum_congr rfl fun f _ => congrArg (l (ix2 p f) * ·) (transpose_ix2_apply y ht f n))

/-- The body's arithmetic at entry (p, q) of the output block: what the block held, plus the sum over this
    centre-block's 1024 centres of the pair's weight times the centre's coefficient (the coefficient block is
    [1024, 784], read as it lies). -/
theorem pay_apply (x0 x1 : Vec Ideal S1024x20 .f32) (x2 : Vec Ideal S1024x784 .bf16)
    (xo : Vec Ideal S1024x784 .f32) (p : Fin 1024) (q : Fin 784) :
    k1_pay2 (F := Ideal) x0 x1 x2 xo (ix2 p q)
      = xo (ix2 p q) + ∑ n : Fin 1024, weight (sqd (fun f : Fin 20 => x0 (ix2 p f)) (fun f : Fin 20 => x1 (ix2 n f))) * x2 (ix2 n q) := by
  unfold k1_pay2
  refine congrArg₂ (· + ·) (congrFun (shapeCast_self xo _) _) ?_
  refine (mix_apply _ _ p q).trans (Finset.sum_congr rfl fun n _ => congrArg₂ (· * ·) ?_ (congrFun (shapeCast_self x2 _) _))
  unfold weight sqd
  refine congrArg Ideal.exp (congrArg (· * Ideal.ofBits .f32 0xBF000000#32) (congrArg (max · (Ideal.ofBits .f32 0x00000000#32)) ?_))
  refine congrArg₂ (· - ·) (congrArg₂ (· + ·) ?_ (colNorm_apply _ _ _ _ _ _ p n)) (congrArg (Ideal.ofBits .f32 0x40000000#32 * ·) ?_)
  · refine (rowNorm_apply _ _ _ _ _ _ p n).trans (Finset.sum_congr rfl fun f _ => ?_)
    show (shapeCast S1024x20 x0 _) (ix2 p f) * (shapeCast S1024x20 x0 _) (ix2 p f) = _
    rw [shapeCast_self]
  · refine (crossT_apply _ _ _ p n).trans (Finset.sum_congr rfl fun f _ => ?_)
    show (shapeCast S1024x20 x0 _) (ix2 p f) * x1 (ix2 n f) = _
    rw [shapeCast_self]

/-- One centre-block's contribution to entry (p, q) of row-block i of the second layer: the sum over the block's 1024
    centres, the arrays whole. -/
def blockTerm (Z C : (⟨2, ![8192, 20]⟩ : Shape).Idx → EReal) (A : (⟨2, ![8192, 784]⟩ : Shape).Idx → EReal)
    (i b : ℕ) (p : Fin 1024) (q : Fin 784) : EReal :=
  ∑ n : Fin 1024, weight (sqd (fun f : Fin 20 => Z (ix2 (pos i p) f)) (fun f : Fin 20 => C (ix2 (pos b n) f))) * A (ix2 (pos b n) q)

/-- The body at a point whose blocks are row-block i and centre-block b of whole arrays: the block's contents plus
    that centre-block's contribution. -/
theorem point_apply (Z C : (⟨2, ![8192, 20]⟩ : Shape).Idx → EReal) (A : (⟨2, ![8192, 784]⟩ : Shape).Idx → EReal)
    (x0 x1 : Vec Ideal S1024x20 .f32) (x2 : Vec Ideal S1024x784 .bf16)
    (xo : Vec Ideal S1024x784 .f32) (i b : ℕ)
    (h0 : ∀ (r : Fin 1024) (f : Fin 20), x0 (ix2 r f) = Z (ix2 (pos i r) f))
    (h1 : ∀ (n : Fin 1024) (f : Fin 20), x1 (ix2 n f) = C (ix2 (pos b n) f))
    (h2 : ∀ (n : Fin 1024) (q : Fin 784), x2 (ix2 n q) = A (ix2 (pos b n) q))
    (p : Fin 1024) (q : Fin 784) :
    k1_pay2 (F := Ideal) x0 x1 x2 xo (ix2 p q) = xo (ix2 p q) + blockTerm Z C A i b p q := by
  rw [pay_apply]
  unfold blockTerm
  refine congrArg (xo (ix2 p q) + ·) (Finset.sum_congr rfl fun n _ => ?_)
  rw [h2 n q, funext (h0 p), funext (h1 n)]

/-- The zero block the reset stores, at any entry: the extended real 0. -/
theorem zero_apply (j : S1024x784.Idx) : k1_pay1 (F := Ideal) j = 0 := Ideal.ofBits_zero_f32

end Cert.KernelIdeal.DecPayload

end
-- ==== Proof.DecValue.lean ====
/-
  The second layer's region: what its result array holds when the region ends, as one function of the arrays the
  region is entered with.

  The grid is 8 row-blocks by 8 centre-blocks, the centre-block moving fastest: point t is row-block t / 8 and
  centre-block t % 8. At that point the three input blocks are rows (t / 8)·1024 … of the row array and centres
  (t % 8)·1024 … of the centre array and of the coefficient array (block reads, by the windows' index maps decided
  over the grid). The output block stays in place across a row-block's 8 points: it is reset at centre-block 0 and
  each point adds its centre-block's contribution, so after point t it holds the sum of the contributions of
  centre-blocks 0 … t % 8 of row-block t / 8 (outsAt_eq, by induction on the point). It is written back after
  centre-block 7, when that sum runs over all 8 blocks, which is the sum over all 8192 centres: the layer's value
  at those rows (flushed_eq). The 8 written-back blocks tile the result array (cover), so the array ends at the
  layer's value everywhere (final).
-/
import proofs.«178752_j29918742184170_2_alg».proof.Proof.Gen.KernelIdeal.Frame
import proofs.«178752_j29918742184170_2_alg».proof.Proof.DecPieces
import proofs.«178752_j29918742184170_2_alg».proof.Proof.DecPayload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.DecValue

open Cert.KernelIdeal Cert.KernelIdeal.Gen Cert.Rbf Cert.KernelIdeal.DecPayload

variable (V : (c : Dev nD) → (b : Ref sig .tc) → Buf (Elt Ideal) ((c : Thread nD τ).loc b))

/-- The windows' index maps over the grid: the row window and the output window follow the row-block, the centre and
    coefficient windows the centre-block. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- A point is below 64. -/
theorem t_lt (t : Fin cfg1.N) : t.val < 64 := lt_of_lt_of_eq t.isLt N_1

/-- The row window's block at point t: rows (t / 8)·1024 + r of the row array. -/
theorem blk0 (c : Dev nD) (t : Fin cfg1.N) (r : Fin 1024) (f : Fin 20) :
    (iblk1 V c 0 t : Vec Ideal S1024x20 .f32) (ix2 r f) = V c main_v1 (ix2 (pos (t.val / 8) r) f) := by
  obtain ⟨e0, e1, -⟩ := idx_facts t
  have ht := t_lt t
  unfold iblk1
  rw [View.read_apply]
  show V c main_v1 _ = V c main_v1 _
  refine congrArg (V c main_v1) (funext fun a => Fin.ext ?_)
  match a with
  | ⟨0, _⟩ =>
    show win1_0.index t (0 : Fin 2) * 1024 + 1 * r.val = (pos (t.val / 8) r).val
    rw [e0, pos_val _ (by omega) r]; omega
  | ⟨1, _⟩ =>
    show win1_0.index t (1 : Fin 2) * 20 + 1 * f.val = f.val
    rw [e1]; omega

/-- The centre window's block at point t: centres (t % 8)·1024 + n of the centre array. -/
theorem blk1 (c : Dev nD) (t : Fin cfg1.N) (n : Fin 1024) (f : Fin 20) :
    (iblk1 V c 1 t : Vec Ideal S1024x20 .f32) (ix2 n f) = V c main_arg2 (ix2 (pos (t.val % 8) n) f) := by
  obtain ⟨-, -, e0, e1, -⟩ := idx_facts t
  unfold iblk1
  rw [View.read_apply]
  show V c main_arg2 _ = V c main_arg2 _
  refine congrArg (V c main_arg2) (funext fun a => Fin.ext ?_)
  match a with
  | ⟨0, _⟩ =>
    show win1_1.index t (0 : Fin 2) * 1024 + 1 * n.val = (pos (t.val % 8) n).val
    rw [e0, pos_val _ (by omega) n]; omega
  | ⟨1, _⟩ =>
    show win1_1.index t (1 : Fin 2) * 20 + 1 * f.val = f.val
    rw [e1]; omega

/-- The coefficient window's block at point t: rows (t % 8)·1024 + n of the [8192, 784] coefficient array. -/
theorem blk2 (c : Dev nD) (t : Fin cfg1.N) (n : Fin 1024) (q : Fin 784) :
    (iblk1 V c 2 t : Vec Ideal S1024x784 .bf16) (ix2 n q) = V c main_v2 (ix2 (pos (t.val % 8) n) q) := by
  obtain ⟨-, -, -, -, e0, e1, -⟩ := idx_facts t
  unfold iblk1
  rw [View.read_apply]
  show V c main_v2 _ = V c main_v2 _
  refine congrArg (V c main_v2) (funext fun a => Fin.ext ?_)
  match a with
  | ⟨0, _⟩ =>
    show win1_2.index t (0 : Fin 2) * 1024 + 1 * n.val = (pos (t.val % 8) n).val
    rw [e0, pos_val _ (by omega) n]; omega
  | ⟨1, _⟩ =>
    show win1_2.index t (1 : Fin 2) * 784 + 1 * q.val = q.val
    rw [e1]; omega

/-- The running value of a row-block's output block after its centre-blocks 0 … k. -/
def acc (X C : (⟨2, ![8192, 20]⟩ : Shape).Idx → EReal) (A : (⟨2, ![8192, 784]⟩ : Shape).Idx → EReal) (i k : ℕ) : S1024x784.Idx → EReal :=
  fun j => ∑ b ∈ Finset.range (k + 1), blockTerm X C A i b (j 0) (j 1)

/-- All 8 centre-blocks' contributions are the layer's value at the row. -/
theorem acc_full (X C : (⟨2, ![8192, 20]⟩ : Shape).Idx → EReal) (A : (⟨2, ![8192, 784]⟩ : Shape).Idx → EReal) (i : ℕ) (p : Fin 1024) (q : Fin 784) :
    ∑ b ∈ Finset.range 8, blockTerm X C A i b p q = decode X C A (ix2 (pos i p) q) :=
  sum_blocks (fun j : Fin 8192 => weight (sqd (fun f : Fin 20 => X (ix2 (pos i p) f)) (fun f : Fin 20 => C (ix2 j f))) * A (ix2 j q))

/-- A resetting point leaves its centre-block's contribution alone (centre-block 0: the first of the row-block). -/
theorem caseA (c : Dev nD) (t : Fin cfg1.N) (h0 : t.val % 8 = 0) :
    outsAt1 V c t.val t.isLt = acc (V c main_v1) (V c main_arg2) (V c main_v2) (t.val / 8) (t.val % 8) := by
  rw [outsAt1_A V c t h0, DecPieces.out_A]
  funext j
  obtain ⟨p, q, rfl⟩ : ∃ (p : Fin 1024) (q : Fin 784), j = ix2 p q := ⟨j 0, j 1, eq_ix2 j⟩
  refine (point_apply (V c main_v1) (V c main_arg2) (V c main_v2) (iblk1 V c 0 t) (iblk1 V c 1 t) (iblk1 V c 2 t)
    (k1_pay1 (F := Ideal)) (t.val / 8) (t.val % 8) (blk0 V c t) (blk1 V c t) (blk2 V c t) p q).trans ?_
  rw [zero_apply, zero_add, h0]
  show _ = ∑ b ∈ Finset.range (0 + 1), blockTerm _ _ _ (t.val / 8) b p q
  rw [Finset.sum_range_one]

/-- Any other point adds its centre-block's contribution to the running value of the point before. -/
theorem caseB (c : Dev nD) (t : Fin cfg1.N) (h0 : ¬t.val % 8 = 0)
    (ih : outsAt1 V c (t.val - 1) (Nat.lt_of_le_of_lt (Nat.sub_le _ _) t.isLt)
      = acc (V c main_v1) (V c main_arg2) (V c main_v2) ((t.val - 1) / 8) ((t.val - 1) % 8)) :
    outsAt1 V c t.val t.isLt = acc (V c main_v1) (V c main_arg2) (V c main_v2) (t.val / 8) (t.val % 8) := by
  rw [outsAt1_B V c t h0, DecPieces.out_B, ih]
  funext j
  obtain ⟨p, q, rfl⟩ : ∃ (p : Fin 1024) (q : Fin 784), j = ix2 p q := ⟨j 0, j 1, eq_ix2 j⟩
  refine (point_apply (V c main_v1) (V c main_arg2) (V c main_v2) (iblk1 V c 0 t) (iblk1 V c 1 t) (iblk1 V c 2 t)
    _ (t.val / 8) (t.val % 8) (blk0 V c t) (blk1 V c t) (blk2 V c t) p q).trans ?_
  have e1 : (t.val - 1) / 8 = t.val / 8 := by omega
  have e2 : t.val % 8 = (t.val - 1) % 8 + 1 := by omega
  show (∑ b ∈ Finset.range ((t.val - 1) % 8 + 1), blockTerm _ _ _ ((t.val - 1) / 8) b p q) + blockTerm _ _ _ (t.val / 8) (t.val % 8) p q
    = ∑ b ∈ Finset.range (t.val % 8 + 1), blockTerm _ _ _ (t.val / 8) b p q
  rw [e1, e2]
  exact (Finset.sum_range_succ _ _).symm

/-- After point n the output block holds the contributions of centre-blocks 0 … n % 8 of row-block n / 8. -/
theorem outsAt_eq (c : Dev nD) : ∀ (n : ℕ) (h : n < cfg1.N),
    outsAt1 V c n h = acc (V c main_v1) (V c main_arg2) (V c main_v2) (n / 8) (n % 8)
  | 0, h => caseA V c ⟨0, h⟩ rfl
  | n + 1, h =>
    if h0 : (n + 1) % 8 = 0 then caseA V c ⟨n + 1, h⟩ h0
    else caseB V c ⟨n + 1, h⟩ h0 (outsAt_eq c n (Nat.lt_of_succ_lt h))

/-- What a write-back writes: the block, at its rows, of the layer's value of the entry arrays. -/
theorem flushed_eq (c : Dev nD) (t : Fin cfg1.N) (hf : (cfg1.win 3).flush t = true) :
    (dat1 V c).flushed 3 t
      = ((cfg1.win 3).blk t).view.read (Elt Ideal) (decode (V c main_v1) (V c main_arg2) (V c main_v2)) := by
  have h7 : t.val % 8 = 7 := (flush1_3 t).mp hf
  obtain ⟨-, -, -, -, -, -, e0, e1⟩ := idx_facts t
  have ht := t_lt t
  show (cfg1.win 3).cut (grid1.coords t) ((dat1 V c).after 3 t) = _
  rw [after1_3, outsAt_eq]
  funext j
  obtain ⟨p, q, rfl⟩ : ∃ (p : Fin 1024) (q : Fin 784), j = ix2 p q := ⟨j 0, j 1, eq_ix2 j⟩
  rw [View.read_apply]
  have hi : ((cfg1.win 3).blk t).view.emb (ix2 p q) = ix2 (pos (t.val / 8) p) q := by
    funext a; apply Fin.ext
    match a with
    | ⟨0, _⟩ =>
      show win1_3.index t (0 : Fin 2) * 1024 + 1 * p.val = (pos (t.val / 8) p).val
      rw [e0, pos_val _ (by omega) p]; omega
    | ⟨1, _⟩ =>
      show win1_3.index t (1 : Fin 2) * 784 + 1 * q.val = q.val
      rw [e1]; omega
  rw [hi]
  refine Eq.trans ?_ (acc_full (V c main_v1) (V c main_arg2) (V c main_v2) (t.val / 8) p q)
  show ∑ b ∈ Finset.range (t.val % 8 + 1), blockTerm _ _ _ (t.val / 8) b p q = _
  rw [h7]

/-- An index of the result array is in point t's block iff each coordinate is in the block's range on its axis. -/
theorem mem_blk (t : Fin cfg1.N) (i : S8192x784.Idx) :
    i ∈ ((cfg1.win 3).blk t).view.set ↔ ∀ a : Fin 2, win1_3.index t a * S1024x784.size a ≤ (i a).val ∧ (i a).val < win1_3.index t a * S1024x784.size a + S1024x784.size a := by
  show i ∈ ((View.whole main_v3).slice (win1_3.rect t)).set ↔ _
  rw [View.set_slice_whole, Rect.mem_set_unit]
  exact Iff.rfl

/-- Every index of the result array lies in the block some write-back writes: the one after the last centre-block
    of its row-block. -/
theorem cover (i : S8192x784.Idx) : ∃ t : Fin cfg1.N, (cfg1.win 3).flush t = true ∧ i ∈ ((cfg1.win 3).blk t).view.set := by
  have hi0 : (i 0).val < 8192 := (i 0).isLt
  have hi1 : (i 1).val < 784 := (i 1).isLt
  have hN : cfg1.N = 64 := N_1
  let t : Fin cfg1.N := ⟨8 * ((i 0).val / 1024) + 7, by rw [hN]; omega⟩
  have htv : t.val = 8 * ((i 0).val / 1024) + 7 := rfl
  obtain ⟨-, -, -, -, -, -, e0, e1⟩ := idx_facts t
  refine ⟨t, (flush1_3 t).mpr (by omega), ?_⟩
  rw [mem_blk]
  intro a
  match a with
  | ⟨0, _⟩ =>
    show win1_3.index t (0 : Fin 2) * 1024 ≤ (i 0).val ∧ (i 0).val < win1_3.index t (0 : Fin 2) * 1024 + 1024
    rw [e0, htv]; omega
  | ⟨1, _⟩ =>
    show win1_3.index t (1 : Fin 2) * 784 ≤ (i 1).val ∧ (i 1).val < win1_3.index t (1 : Fin 2) * 784 + 784
    rw [e1]; omega

/-- The region's result array ends at the layer's value of the arrays the region is entered with. -/
theorem final (c : Dev nD) :
    (dat1 V c).arrAt 3 cfg1.N = decode (V c main_v1) (V c main_arg2) (V c main_v2) :=
  (dat1 V c).arrAt_eq_of_cover 3 _ (flushed_eq V c) (cover)

end Cert.KernelIdeal.DecValue

end
-- ==== Proof.KernelValue.lean ====
/-
  The kernel program's result, over the extended reals: the network of the five argument arrays.

  The program is a change of float format of the first layer's centres, the first layer's region, a change of float
  format of the second layer's coefficients, the second layer's region. On extended reals a change of float format
  is the identity. The first region is entered with the rows, the re-formatted centres and the first coefficient
  array as launched, so its result array ends at the first layer's value of them. The second region is entered with
  that array, the second layer's centres as launched and the re-formatted second coefficient array, so its result
  array, the program's result, ends at the second layer's value of those: the network.
-/
import proofs.«178752_j29918742184170_2_alg».proof.Proof.KernelRun
import proofs.«178752_j29918742184170_2_alg».proof.Proof.EncValue
import proofs.«178752_j29918742184170_2_alg».proof.Proof.DecValue

noncomputable section

open Idealize.ShloMosaic Idealize.ShloMosaic.TcCoe Idealize.SL.Sem

namespace Cert.KernelIdeal.Value

open Cert.KernelIdeal Cert.KernelIdeal.Gen Cert.Rbf

variable (m : (ℓ : Loc nD τ sig) → Buf (Elt Ideal) ℓ) (ρ : Dev nD → PrngReg)

/-- A change of float format of an array of extended reals is the array. -/
theorem truncf_id {s : Shape} (x : FVec Ideal s .f32) (h : FTy.bits .bf16 < FTy.bits .f32) :
    (truncf .bf16 x h : FVec Ideal s .bf16) = x := rfl

/-- The first region's result array: the first layer of the rows, centres and coefficients as launched. -/
theorem first_layer (c : Dev nD) :
    V3 m ρ c main_v1 = encode (m ((c : Thread nD τ).loc main_arg0)) (m ((c : Thread nD τ).loc main_arg1)) (m ((c : Thread nD τ).loc main_arg3)) := by
  rw [Run.V3_v1, EncValue.final (V1 m ρ) c, Run.V1_arg0, Run.V1_v0, Run.V1_arg3]
  rfl

/-- The program's result buffer at the last boundary: the network of the five arguments. -/
theorem result (c : Dev nD) :
    W4 m ρ c (Proc.devRef .tc main_v3)
      = network (m ((c : Thread nD τ).loc main_arg0)) (m ((c : Thread nD τ).loc main_arg1)) (m ((c : Thread nD τ).loc main_arg2))
          (m ((c : Thread nD τ).loc main_arg3)) (m ((c : Thread nD τ).loc main_arg4)) := by
  rw [Run.W4_v3, DecValue.final (V3 m ρ) c, first_layer, Run.V3_arg2, Run.V3_v2]
  rfl

/-- Every weakly fair execution of the program ends with the result buffer at the network of the arguments and the
    arguments unchanged. -/
theorem run : θ_run defs (onTc (τ := τ) (main (F := Ideal))) ⟨m, fun _ => 0, ρ⟩ (fun r => ∀ c : Dev nD,
      r.2.mem ((c.tc : Thread nD τ).loc main_v3)
        = network (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Run.run_result m ρ)

end Cert.KernelIdeal.Value

end
-- ==== Proof.RefValue.lean ====
/-
  The reference program's two stages that matter, read as the specification's functions.

  The reference computes, for each of its two layers, the matrix of Gaussian weights of (row, centre) pairs and then
  its product with a coefficient matrix. A weight is exp(−max(|a|² + |c|² − 2·(a·c), 0) / 2): two row-wise sums of
  squares, spread along the other axis, a matrix product for the mixed term, a floor at zero, a negation, a quotient
  by 2 and an exponential. Each of these is read at one index; the sums start from the word of 0.0, which is the
  real 0 and drops out. Negating and dividing by the word of 2.0 is the specification's product with −1/2
  (Rbf.weight_host). The first layer's coefficient matrix is a transposed argument, so its entry (k, q) is the
  argument's entry (q, k). The second layer's rows are the first layer's result, which is kept as one unexpanded
  term throughout.
-/
import proofs.«178752_j29918742184170_2_alg».proof.Proof.Gen.ReferenceIdeal.Read
import proofs.«178752_j29918742184170_2_alg».proof.Proof.RbfSpec

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.Rbf

/-! ## The first layer -/

/-- The sum of squares of row p of the first argument. -/
theorem sqA (x0 : (⟨S8192x784, .f32⟩ : BufTy).Contents (Elt Ideal)) (p : Fin 8192) :
    val_main_v1 (F := Ideal) x0 (ix1 p) = ∑ f : Fin 784, x0 (ix2 p f) * x0 (ix2 p f) := by
  rw [val_main_v1_apply, val_main_cst_apply, Ideal.ofBits_def, Ideal.ofBits_zero_f32, zero_add]
  refine Finset.sum_congr rfl fun f _ => ?_
  have e : idx_main_v1 (ix1 p) f = ix2 p f :=
    funext fun a => Fin.ext (by match a with | ⟨0, _⟩ => rfl | ⟨1, _⟩ => rfl)
  rw [e, val_main_v0_apply, Ideal.mulf_def]

/-- The sum of squares of centre k of the second argument. -/
theorem sqB (x1 : (⟨S8192x784, .f32⟩ : BufTy).Contents (Elt Ideal)) (k : Fin 8192) :
    val_main_v4 (F := Ideal) x1 (ix1 k) = ∑ f : Fin 784, x1 (ix2 k f) * x1 (ix2 k f) := by
  rw [val_main_v4_apply, val_main_cst_0_apply, Ideal.ofBits_def, Ideal.ofBits_zero_f32, zero_add]
  refine Finset.sum_congr rfl fun f _ => ?_
  have e : idx_main_v4 (ix1 k) f = ix2 k f :=
    funext fun a => Fin.ext (by match a with | ⟨0, _⟩ => rfl | ⟨1, _⟩ => rfl)
  rw [e, val_main_v3_apply, Ideal.mulf_def]

/-- The rows' sums of squares spread along the centres: entry (p, k) is row p's. -/
theorem bcA (x0 : (⟨S8192x784, .f32⟩ : BufTy).Contents (Elt Ideal)) (p k : Fin 8192) :
    val_main_v6 (F := Ideal) x0 (ix2 p k) = val_main_v1 (F := Ideal) x0 (ix1 p) := by
  rw [val_main_v6_apply, val_main_v2_apply]
  exact congrArg _ (funext fun a => Fin.ext (by match a with | ⟨0, _⟩ => rfl))

/-- The centres' sums of squares spread along the rows: entry (p, k) is centre k's. -/
theorem bcB (x1 : (⟨S8192x784, .f32⟩ : BufTy).Contents (Elt Ideal)) (p k : Fin 8192) :
    val_main_v7 (F := Ideal) x1 (ix2 p k) = val_main_v4 (F := Ideal) x1 (ix1 k) := by
  rw [val_main_v7_apply, val_main_v5_apply]
  exact congrArg _ (funext fun a => Fin.ext (by match a with | ⟨0, _⟩ => rfl))

/-- The mixed term: entry (p, k) of the product with the transposed centres is the dot product of row p and centre k. -/
theorem dotAB (x0 x1 : (⟨S8192x784, .f32⟩ : BufTy).Contents (Elt Ideal)) (p k : Fin 8192) :
    val_main_v10 (F := Ideal) x0 x1 (ix2 p k) = ∑ f : Fin 784, x0 (ix2 p f) * x1 (ix2 k f) := by
  rw [val_main_v10_apply]
  refine Finset.sum_congr rfl fun f _ => ?_
  have el : lidx_main_v10 (ix2 p k) f = ix2 p f :=
    funext fun a => Fin.ext (by match a with | ⟨0, _⟩ => rfl | ⟨1, _⟩ => rfl)
  have er : idx_main_v9 (ridx_main_v10 (ix2 p k) f) = ix2 k f :=
    funext fun a => Fin.ext (by match a with | ⟨0, _⟩ => rfl | ⟨1, _⟩ => rfl)
  rw [val_main_v9_apply, el, er]

/-- The first layer's weight matrix: entry (p, k) is the Gaussian weight of row p against centre k. -/
theorem gram1 (x0 x1 : (⟨S8192x784, .f32⟩ : BufTy).Contents (Elt Ideal)) (p k : Fin 8192) :
    val_main_v19 (F := Ideal) x0 x1 (ix2 p k)
      = weight (sqd (fun f : Fin 784 => x0 (ix2 p f)) (fun f : Fin 784 => x1 (ix2 k f))) := by
  rw [val_main_v19_apply, val_main_v18_apply, val_main_v17_apply, val_main_cst_3_apply, val_main_v16_apply,
    val_main_v15_apply, val_main_v14_apply, val_main_cst_2_apply, val_main_v13_apply, val_main_v12_apply,
    val_main_v11_apply, val_main_cst_1_apply, val_main_v8_apply, bcA, bcB, dotAB, sqA, sqB]
  simp only [Ideal.hostUnary_exp_def, Ideal.hostDivf_def, Ideal.hostNegf_def, Ideal.negf_def, Ideal.maximumf_def,
    Ideal.subf_def, Ideal.addf_def, Ideal.mulf_def, Ideal.ofBits_def]
  exact weight_host _

/-- The first layer is the specification's. -/
theorem encode_eq (x0 x1 : (⟨S8192x784, .f32⟩ : BufTy).Contents (Elt Ideal)) (x3 : (⟨S20x8192, .f32⟩ : BufTy).Contents (Elt Ideal)) :
    Cert.ReferenceIdeal.Read.val_main_v21 (F := Ideal) x0 x1 x3 = Cert.Rbf.encode x0 x1 x3 := by
  funext i
  obtain ⟨p, q, rfl⟩ : ∃ (p : Fin 8192) (q : Fin 20), i = ix2 p q := ⟨i 0, i 1, eq_ix2 i⟩
  rw [val_main_v21_apply]
  show _ = ∑ j : Fin 8192, weight (sqd (fun f : Fin 784 => x0 (ix2 p f)) (fun f : Fin 784 => x1 (ix2 j f))) * x3 (ix2 q j)
  refine Finset.sum_congr rfl fun k _ => ?_
  have el : lidx_main_v21 (ix2 p q) k = ix2 p k :=
    funext fun a => Fin.ext (by match a with | ⟨0, _⟩ => rfl | ⟨1, _⟩ => rfl)
  have er : idx_main_v20 (ridx_main_v21 (ix2 p q) k) = ix2 q k :=
    funext fun a => Fin.ext (by match a with | ⟨0, _⟩ => rfl | ⟨1, _⟩ => rfl)
  rw [val_main_v20_apply, el, er, gram1]

/-! ## The second layer

Its rows are the first layer's result, `val_main_v21 x0 x1 x3`, which stays folded: every step below rewrites with a
stage's reading lemma and never looks inside that term. -/

/-- The sum of squares of row p of the first layer's result. -/
theorem sqZ (x0 x1 : (⟨S8192x784, .f32⟩ : BufTy).Contents (Elt Ideal)) (x3 : (⟨S20x8192, .f32⟩ : BufTy).Contents (Elt Ideal)) (p : Fin 8192) :
    val_main_v23 (F := Ideal) x0 x1 x3 (ix1 p)
      = ∑ f : Fin 20, val_main_v21 (F := Ideal) x0 x1 x3 (ix2 p f) * val_main_v21 (F := Ideal) x0 x1 x3 (ix2 p f) := by
  rw [val_main_v23_apply, val_main_cst_4_apply, Ideal.ofBits_def, Ideal.ofBits_zero_f32, zero_add]
  refine Finset.sum_congr rfl fun f _ => ?_
  have e : idx_main_v23 (ix1 p) f = ix2 p f :=
    funext fun a => Fin.ext (by match a with | ⟨0, _⟩ => rfl | ⟨1, _⟩ => rfl)
  rw [e, val_main_v22_apply, Ideal.mulf_def]

/-- The sum of squares of centre k of the third argument. -/
theorem sqC (x2 : (⟨S8192x20, .f32⟩ : BufTy).Contents (Elt Ideal)) (k : Fin 8192) :
    val_main_v26 (F := Ideal) x2 (ix1 k) = ∑ f : Fin 20, x2 (ix2 k f) * x2 (ix2 k f) := by
  rw [val_main_v26_apply, val_main_cst_5_apply, Ideal.ofBits_def, Ideal.ofBits_zero_f32, zero_add]
  refine Finset.sum_congr rfl fun f _ => ?_
  have e : idx_main_v26 (ix1 k) f = ix2 k f :=
    funext fun a => Fin.ext (by match a with | ⟨0, _⟩ => rfl | ⟨1, _⟩ => rfl)
  rw [e, val_main_v25_apply, Ideal.mulf_def]

/-- The rows' sums of squares spread along the centres: entry (p, k) is row p's. -/
theorem bcZ (x0 x1 : (⟨S8192x784, .f32⟩ : BufTy).Contents (Elt Ideal)) (x3 : (⟨S20x8192, .f32⟩ : BufTy).Contents (Elt Ideal)) (p k : Fin 8192) :
    val_main_v28 (F := Ideal) x0 x1 x3 (ix2 p k) = val_main_v23 (F := Ideal) x0 x1 x3 (ix1 p) := by
  rw [val_main_v28_apply, val_main_v24_apply]
  exact congrArg _ (funext fun a => Fin.ext (by match a with | ⟨0, _⟩ => rfl))

/-- The centres' sums of squares spread along the rows: entry (p, k) is centre k's. -/
theorem bcC (x2 : (⟨S8192x20, .f32⟩ : BufTy).Contents (Elt Ideal)) (p k : Fin 8192) :
    val_main_v29 (F := Ideal) x2 (ix2 p k) = val_main_v26 (F := Ideal) x2 (ix1 k) := by
  rw [val_main_v29_apply, val_main_v27_apply]
  exact congrArg _ (funext fun a => Fin.ext (by match a with | ⟨0, _⟩ => rfl))

/-- The mixed term: entry (p, k) is the dot product of row p of the first layer's result and centre k. -/
theorem dotZC (x0 x1 : (⟨S8192x784, .f32⟩ : BufTy).Contents (Elt Ideal)) (x2 : (⟨S8192x20, .f32⟩ : BufTy).Contents (Elt Ideal)) (x3 : (⟨S20x8192, .f32⟩ : BufTy).Contents (Elt Ideal)) (p k : Fin 8192) :
    val_main_v32 (F := Ideal) x0 x1 x2 x3 (ix2 p k)
      = ∑ f : Fin 20, val_main_v21 (F := Ideal) x0 x1 x3 (ix2 p f) * x2 (ix2 k f) := by
  rw [val_main_v32_apply]
  refine Finset.sum_congr rfl fun f _ => ?_
  have el : lidx_main_v32 (ix2 p k) f = ix2 p f :=
    funext fun a => Fin.ext (by match a with | ⟨0, _⟩ => rfl | ⟨1, _⟩ => rfl)
  have er : idx_main_v31 (ridx_main_v32 (ix2 p k) f) = ix2 k f :=
    funext fun a => Fin.ext (by match a with | ⟨0, _⟩ => rfl | ⟨1, _⟩ => rfl)
  rw [val_main_v31_apply, el, er]

/-- The second layer's weight matrix: entry (p, k) is the Gaussian weight of row p of the first layer's result
    against centre k. -/
theorem gram2 (x0 x1 : (⟨S8192x784, .f32⟩ : BufTy).Contents (Elt Ideal)) (x2 : (⟨S8192x20, .f32⟩ : BufTy).Contents (Elt Ideal)) (x3 : (⟨S20x8192, .f32⟩ : BufTy).Contents (Elt Ideal)) (p k : Fin 8192) :
    val_main_v41 (F := Ideal) x0 x1 x2 x3 (ix2 p k)
      = weight (sqd (fun f : Fin 20 => val_main_v21 (F := Ideal) x0 x1 x3 (ix2 p f)) (fun f : Fin 20 => x2 (ix2 k f))) := by
  rw [val_main_v41_apply, val_main_v40_apply, val_main_v39_apply, val_main_cst_8_apply, val_main_v38_apply,
    val_main_v37_apply, val_main_v36_apply, val_main_cst_7_apply, val_main_v35_apply, val_main_v34_apply,
    val_main_v33_apply, val_main_cst_6_apply, val_main_v30_apply, bcZ, bcC, dotZC, sqZ, sqC]
  simp only [Ideal.hostUnary_exp_def, Ideal.hostDivf_def, Ideal.hostNegf_def, Ideal.negf_def, Ideal.maximumf_def,
    Ideal.subf_def, Ideal.addf_def, Ideal.mulf_def, Ideal.ofBits_def]
  exact weight_host _

/-- The last stage is the specification's second layer on the first layer's result. -/
theorem decode_eq (x0 x1 : (⟨S8192x784, .f32⟩ : BufTy).Contents (Elt Ideal)) (x2 : (⟨S8192x20, .f32⟩ : BufTy).Contents (Elt Ideal)) (x3 : (⟨S20x8192, .f32⟩ : BufTy).Contents (Elt Ideal)) (x4 : (⟨S8192x784, .f32⟩ : BufTy).Contents (Elt Ideal)) :
    val_main_v42 (F := Ideal) x0 x1 x2 x3 x4 = decode (val_main_v21 (F := Ideal) x0 x1 x3) x2 x4 := by
  funext i
  obtain ⟨p, q, rfl⟩ : ∃ (p : Fin 8192) (q : Fin 784), i = ix2 p q := ⟨i 0, i 1, eq_ix2 i⟩
  rw [val_main_v42_apply]
  show _ = ∑ j : Fin 8192, weight (sqd (fun f : Fin 20 => val_main_v21 (F := Ideal) x0 x1 x3 (ix2 p f))
    (fun f : Fin 20 => x2 (ix2 j f))) * x4 (ix2 j q)
  refine Finset.sum_congr rfl fun k _ => ?_
  have el : lidx_main_v42 (ix2 p q) k = ix2 p k :=
    funext fun a => Fin.ext (by match a with | ⟨0, _⟩ => rfl | ⟨1, _⟩ => rfl)
  have er : ridx_main_v42 (ix2 p q) k = ix2 k q :=
    funext fun a => Fin.ext (by match a with | ⟨0, _⟩ => rfl | ⟨1, _⟩ => rfl)
  rw [el, er, gram2]

/-- The reference's result is the specification's network. -/
theorem result_eq (x0 x1 : (⟨S8192x784, .f32⟩ : BufTy).Contents (Elt Ideal)) (x2 : (⟨S8192x20, .f32⟩ : BufTy).Contents (Elt Ideal)) (x3 : (⟨S20x8192, .f32⟩ : BufTy).Contents (Elt Ideal)) (x4 : (⟨S8192x784, .f32⟩ : BufTy).Contents (Elt Ideal)) :
    Cert.ReferenceIdeal.Read.val_main_v42 (F := Ideal) x0 x1 x2 x3 x4 = Cert.Rbf.network x0 x1 x2 x3 x4 := by
  rw [decode_eq, encode_eq]
  rfl

end Cert.ReferenceIdeal.RefValue

end
-- ==== Proof.lean ====
/-
  The certificate: a two-layer Gaussian radial-basis network computed by two tiled, fused kernels against its
  plain reference.

  Each layer forms, for every (row, centre) pair, the weight exp(−max(|row|² + |centre|² − 2·row·centre, 0)/2) and
  multiplies the weight matrix with a coefficient matrix. The kernel never forms a whole weight matrix: for each
  block of 1024 rows it walks the 8 blocks of 1024 centres, forms that block of weights and adds its product with the
  matching coefficient block into the output block, which it resets at the first centre-block and writes back after
  the last. The reference forms the whole 8192 × 8192 weight matrix and takes one product.

  Over the extended reals the two agree entry by entry, for all inputs: a sum over 8192 centres taken in 8 blocks one
  after the other is the same sum (addition is commutative and associative, infinities included); the kernel's
  product with −1/2 is the reference's negation followed by a quotient by 2; the changes of float format the kernel
  makes for its matrix products are the identity. Nothing here needs the inputs to be finite, so the precondition is
  never opened. The ideal pass rewrote nothing, so the idealized kernel is the kernel's own text.

  The modules: RbfSpec (the network as a function of the five arrays, and the two small laws), EncPieces / DecPieces
  (what one grid point leaves in the output block, in each control case), EncPayload / DecPayload (the body's
  arithmetic at an entry), EncValue / DecValue (a region's result array as the layer of its entry arrays),
  KernelRun (the program's run with the result buffer named, and what each region is entered with), KernelValue
  (the two regions composed), RefValue (the reference's result as the network).
-/
import proofs.«178752_j29918742184170_2_alg».proof.Defs
import proofs.«178752_j29918742184170_2_alg».proof.Proof.Gen.Kernel
import proofs.«178752_j29918742184170_2_alg».proof.Proof.Gen.Kernel.Skeleton
import proofs.«178752_j29918742184170_2_alg».proof.Proof.Gen.Kernel.Launch
import proofs.«178752_j29918742184170_2_alg».proof.Proof.Gen.Kernel.Points
import proofs.«178752_j29918742184170_2_alg».proof.Proof.Gen.Kernel.Frame
import proofs.«178752_j29918742184170_2_alg».proof.Proof.Gen.KernelIdeal
import proofs.«178752_j29918742184170_2_alg».proof.Proof.Gen.KernelIdeal.Skeleton
import proofs.«178752_j29918742184170_2_alg».proof.Proof.Gen.KernelIdeal.Launch
import proofs.«178752_j29918742184170_2_alg».proof.Proof.Gen.KernelIdeal.Points
import proofs.«178752_j29918742184170_2_alg».proof.Proof.Gen.KernelIdeal.Frame
import proofs.«178752_j29918742184170_2_alg».proof.Proof.Gen.ReferenceIdeal
import proofs.«178752_j29918742184170_2_alg».proof.Proof.Gen.ReferenceIdeal.Run
import proofs.«178752_j29918742184170_2_alg».proof.Proof.Gen.ReferenceIdeal.Read
import proofs.«178752_j29918742184170_2_alg».proof.Proof.Gen.Pre_finite_inputs
import proofs.«178752_j29918742184170_2_alg».proof.Proof.KernelValue
import proofs.«178752_j29918742184170_2_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with their result at the network of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
